-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S1x10000 : Shape := ⟨2, ![1, 10000]⟩
abbrev S1x400 : Shape := ⟨2, ![1, 400]⟩
abbrev S400x128 : Shape := ⟨2, ![400, 128]⟩

abbrev nBuf : Space → Nat
  | .hbm => 10
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v19 : BitVec 32 := Scalar.muli arg0 c400_i32
  let v20 : Index := Scalar.indexCast v19
  let c0_13 : Index := 0#32
  ![v20.toNat, 0]
def k0_cond2 (i : grid0.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S128_S1x128 : S128.ShapeCasts S1x128
  shapeCasts_S1x128_S128 : S1x128.ShapeCasts S128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  dot_S10000x128_S128x128_S10000x128_1_0_0_1_n_n_wf : DotDims.WF S10000x128 S128x128 S10000x128 [1] [0] [0] [1] [] []
  dot_S1x400_S400x10000_S1x10000_1_0_0_1_n_n_wf : DotDims.WF S1x400 S400x10000 S1x10000 [1] [0] [0] [1] [] []
  dot_S400x10000_S10000x128_S400x128_1_0_0_1_n_n_wf : DotDims.WF S400x10000 S10000x128 S400x128 [1] [0] [0] [1] [] []
  dot_S1x10000_S10000x128_S1x128_1_0_0_1_n_n_wf : DotDims.WF S1x10000 S10000x128 S1x128 [1] [0] [0] [1] [] []
  dot_S1x128_S128x128_S1x128_1_0_0_1_n_n_wf : DotDims.WF S1x128 S128x128 S1x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1x400_S400x10000_S1x10000_1_0_0_1_n_n : DotDims S1x400 S400x10000 S1x10000 where
  lhsContracting := [1]
  rhsContracting := [0]
  lhsNonContracting := [0]
  rhsNonContracting := [1]
  lhsBatch := []
  rhsBatch := []
  wf := dot_S1x400_S400x10000_S1x10000_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1x10000_S10000x128_S1x128_1_0_0_1_n_n : DotDims S1x10000 S10000x128 S1x128 where
  lhsContracting := [1]
  rhsContracting := [0]
  lhsNonContracting := [0]
  rhsNonContracting := [1]
  lhsBatch := []
  rhsBatch := []
  wf := dot_S1x10000_S10000x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S128_d0 : S10000x128.ReducesTo [0] S128
  h_S_ : 0 < S_.numel
  bcast_S_S128 : S_.BroadcastsInDim S128 (![] : Fin 0 → Fin S128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelShared.lean ====
/-
  What the three runs of the kernel body share: the two branch conditions of the body (the first grid point
  initialises the two accumulators, the last one contracts them into the output) decided over the 25 grid points,
  the points at which the output window is idle, the staging memrefs the pipeline calls the body with, the three
  scratch buffers (the product x·W1, the rectified activations, the column sums of the adjacency) and the region's
  invariant opened over them.
-/
import proofs.«165508_g90297392431549_cont_sun_m_1291_8_alg».proof.Proof.Gen.Kernel.Frame
import proofs.«165508_g90297392431549_cont_sun_m_1291_8_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch: the grid coordinate is zero. -/
abbrev condInit (i : grid0.Coords) : Prop := (Scalar.cmpi .ne (Scalar.extui (Scalar.cmpi .eq (BitVec.ofNat 32 (i 0).val) 0#32)) 0#32) = 1#1
theorem condInit_iff : ∀ t : Fin cfg0.N, condInit (grid0.coords t) ↔ t.val = 0 :=
  (by decide +kernel : ∀ t : Fin grid0.N, condInit (grid0.coords t) ↔ t.val = 0)

/-- The body's second branch: the grid coordinate is the last one, 24. -/
abbrev condLast (i : grid0.Coords) : Prop := k0_cond2 i = 1#1
theorem condLast_iff : ∀ t : Fin cfg0.N, condLast (grid0.coords t) ↔ t.val = 24 :=
  (by decide +kernel : ∀ t : Fin grid0.N, condLast (grid0.coords t) ↔ t.val = 24)

/-- The six input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is stored only at the last point: idle, and not written back, everywhere else. -/
theorem idle6 : ∀ t : Fin cfg0.N, ¬condLast (grid0.coords t) → cfg0.idle 6 (grid0.coords t) = true := by decide +kernel
theorem noFlush6 : ∀ t : Fin cfg0.N, ¬condLast (grid0.coords t) → (cfg0.win 6).flush t = false := by decide +kernel
theorem live6 : ∀ t : Fin cfg0.N, condLast (grid0.coords t) → cfg0.idle 6 (grid0.coords t) = false := by decide +kernel

/-- The staging memref of each window at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)

/-- The scratch buffers: the product x·W1, the rectified activations, the column sums. -/
abbrev scSupp : Memref sig .tc .vmem S10000x128 .f32 := Memref.whole cc0_scratch0
abbrev scAct : Memref sig .tc .vmem S10000x128 .f32 := Memref.whole cc0_scratch1
abbrev scCol : Memref sig .tc .vmem S1x10000 .f32 := Memref.whole cc0_scratch2

/-- The region's invariant as the launch hands it over: each scratch buffer owned at some contents, and the generator
    register at some state. -/
theorem PhiA_open (c : Dev nD) :
    (Pipeline.ΦA spec0 c : sProp 𝕄)
      = iprop(iprop((∃ d, owns (c : Thread nD τ) scSupp fullShare d) ∗ (∃ d, owns (c : Thread nD τ) scAct fullShare d) ∗ (∃ d, owns (c : Thread nD τ) scCol fullShare d)) ∗ (∃ r, prngReg c r)) := by
  unfold Pipeline.ΦA; rw [scopedRest0_eq]; simp only [scSupp, scAct, scCol, owns_whole]; try rfl

end Cert.Kernel.Hand

end
-- ==== Proof.KernelRunFirst.lean ====
/-
  The body at the first grid point (the initialising branch taken, the contracting branch skipped): it stores the
  product x·W1 and a zero row of column sums, then adds the block's column sums and stores the block's 400 rows of
  rectified activations. The output buffer is not touched.
-/
import proofs.«165508_g90297392431549_cont_sun_m_1291_8_alg».proof.Proof.KernelShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first point's triple over the piece lists `LS0` (product), `LS1` (activations), `LS2` (column sums). -/
def FirstTriple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32)
    (LS0 : List (View.Piece (Elt F) S10000x128 .f32)) (LS1 : List (View.Piece (Elt F) S10000x128 .f32)) (LS2 : List (View.Piece (Elt F) S1x10000 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs1 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1) ∗ (∃ f, arg10.view.loc (c : Thread nD τ) ↦[arg10.view.set]{fullShare} arg10.view.writes (Elt F) f LS2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K

set_option maxHeartbeats 4000000 in
/-- The first point's run: the inputs and the output buffer handed back as found, the product and the column sums
    stored whole, the activations with one slice written over whatever the buffer held. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32) :
    Σ' (LS0 : List (View.Piece (Elt F) S10000x128 .f32)) (LS1 : List (View.Piece (Elt F) S10000x128 .f32)), { LS2 : List (View.Piece (Elt F) S1x10000 .f32) //
      FirstTriple c i arg1 harg1 arg2 harg2 arg3 harg3 arg4 harg4 arg5 harg5 arg6 harg6 arg7 harg7 arg8 harg8 arg9 harg9 arg10 harg10 x0 x1 x2 x3 x4 x5 x6 xs1 LS0 LS1 LS2 } := by
  refine ⟨?_, ?_, ?_, ?run⟩
  case run =>
    unfold FirstTriple; intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; iexact HS0
    isplitl [HS1]
    · iexact HS1
    iexists _; iexact HS2

end Cert.Kernel.Hand

end
-- ==== Proof.KernelRunMid.lean ====
/-
  The body at a grid point that is neither the first nor the last (both branches skipped): it adds the block's column
  sums to the running ones and stores the block's 400 rows of rectified activations. The product x·W1 is read, not
  written; the output buffer is not touched.
-/
import proofs.«165508_g90297392431549_cont_sun_m_1291_8_alg».proof.Proof.KernelShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A middle point's triple over the piece lists `LS1` (activations), `LS2` (column sums). -/
def MidTriple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32)
    (LS1 : List (View.Piece (Elt F) S10000x128 .f32)) (LS2 : List (View.Piece (Elt F) S1x10000 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ (arg9.view.loc (c : Thread nD τ) ↦[arg9.view.set]{fullShare} arg9.view.writes (Elt F) (harg9.unread xs1) LS1) ∗ (∃ f, arg10.view.loc (c : Thread nD τ) ↦[arg10.view.set]{fullShare} arg10.view.writes (Elt F) f LS2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K

set_option maxHeartbeats 4000000 in
/-- A middle point's run: the inputs, the output buffer and the product handed back as found, the column sums stored
    whole, the activations with one slice written over what the points before left. -/
noncomputable def runMid (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32) :
    Σ' (LS1 : List (View.Piece (Elt F) S10000x128 .f32)), { LS2 : List (View.Piece (Elt F) S1x10000 .f32) //
      MidTriple c i arg1 harg1 arg2 harg2 arg3 harg3 arg4 harg4 arg5 harg5 arg6 harg6 arg7 harg7 arg8 harg8 arg9 harg9 arg10 harg10 x0 x1 x2 x3 x4 x5 x6 xs0 xs1 xs2 LS1 LS2 } := by
  refine ⟨?_, ?_, ?run⟩
  case run =>
    unfold MidTriple; intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexact HS1
    iexists _; iexact HS2

end Cert.Kernel.Hand

end
-- ==== Proof.KernelRunLast.lean ====
/-
  The body at the last grid point (the initialising branch skipped, the contracting branch taken): it adds the block's
  column sums to the running ones, stores the block's 400 rows of rectified activations, and then contracts the column
  sums against ALL the activations, multiplies by W2, scales by 1/10000 and adds the second bias into the output buffer.
  The pieces each buffer ends with are the ones the symbolic run finds.
-/
import proofs.«165508_g90297392431549_cont_sun_m_1291_8_alg».proof.Proof.KernelShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The last point's triple over the piece lists `LO` (output), `LS1` (activations), `LS2` (column sums). -/
def LastTriple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32)
    (LO : List (View.Piece (Elt F) S1x128 .f32)) (LS1 : List (View.Piece (Elt F) S10000x128 .f32)) (LS2 : List (View.Piece (Elt F) S1x10000 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xs0 ∗ (arg9.view.loc (c : Thread nD τ) ↦[arg9.view.set]{fullShare} arg9.view.writes (Elt F) (harg9.unread xs1) LS1) ∗ (∃ f, arg10.view.loc (c : Thread nD τ) ↦[arg10.view.set]{fullShare} arg10.view.writes (Elt F) f LS2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K

set_option maxHeartbeats 4000000 in
/-- The last point's run: the inputs handed back as found, the product buffer untouched, the activations with one slice
    written over what the points before left, the column sums and the output each stored whole. -/
noncomputable def runLast (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : condLast i)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32) :
    Σ' (LO : List (View.Piece (Elt F) S1x128 .f32)) (LS1 : List (View.Piece (Elt F) S10000x128 .f32)), { LS2 : List (View.Piece (Elt F) S1x10000 .f32) //
      LastTriple c i arg1 harg1 arg2 harg2 arg3 harg3 arg4 harg4 arg5 harg5 arg6 harg6 arg7 harg7 arg8 harg8 arg9 harg9 arg10 harg10 x0 x1 x2 x3 x4 x5 xs0 xs1 xs2 LO LS1 LS2 } := by
  refine ⟨?_, ?_, ?_, ?run⟩
  case run =>
    unfold LastTriple; intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]
    · iexists _; isplitr; · ipureintro; exact harg8.read_unread _
      iexact HS0
    isplitl [HS1]
    · iexact HS1
    iexists _; iexact HS2

end Cert.Kernel.Hand

end
-- ==== Proof.KernelPieces.lean ====
/-
  The pieces the three runs of the body leave, written out. A load of a whole buffer reads its contents, a load of a
  buffer one whole store has just covered reads that store's value; so each piece's value is one of the body's five
  pure functions of the contents the buffers were found at:
    the product x·W1; the zero row; the running column sums plus the block's; the block's rectified rows; the output.
  Only the last point's output reads a buffer that a store covered in part: the activations, the block's 400 rows
  written over what the earlier points left.
-/
import proofs.«165508_g90297392431549_cont_sun_m_1291_8_alg».proof.Proof.KernelRunFirst
import proofs.«165508_g90297392431549_cont_sun_m_1291_8_alg».proof.Proof.KernelRunMid
import proofs.«165508_g90297392431549_cont_sun_m_1291_8_alg».proof.Proof.KernelRunLast
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The two zero offsets, as the constant function. -/
theorem zero2 : (![0, 0] : Fin 2 → ℕ) = fun _ => 0 := by
  funext a; fin_cases a <;> rfl

set_option maxHeartbeats 1000000 in
/-- The first point leaves: the product stored whole; the block's rows of activations, computed from that product;
    the column sums, the block's added to the zero row just stored. -/
theorem runFirst_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32) :
    (runFirst c i arg1 harg1 arg2 harg2 arg3 harg3 arg4 harg4 arg5 harg5 arg6 harg6 arg7 harg7 arg8 harg8 arg9 harg9 arg10 harg10 hc0 hc1 x0 x1 x2 x3 x4 x5 x6 xs1).1
        = [⟨Rect.unit (s := S10000x128) ![0, 0] S10000x128.size inb_S10000x128_S10000x128_0_0, k0_pay1 x0 x2⟩]
    ∧ (runFirst c i arg1 harg1 arg2 harg2 arg3 harg3 arg4 harg4 arg5 harg5 arg6 harg6 arg7 harg7 arg8 harg8 arg9 harg9 arg10 harg10 hc0 hc1 x0 x1 x2 x3 x4 x5 x6 xs1).2.1
        = [⟨Rect.unit (s := S10000x128) (k0_off1 i) S400x128.size (k0_off1_inb i), k0_pay4 x1 (k0_pay1 x0 x2) x3⟩]
    ∧ (runFirst c i arg1 harg1 arg2 harg2 arg3 harg3 arg4 harg4 arg5 harg5 arg6 harg6 arg7 harg7 arg8 harg8 arg9 harg9 arg10 harg10 hc0 hc1 x0 x1 x2 x3 x4 x5 x6 xs1).2.2.1
        = [⟨Rect.unit (s := S1x10000) ![0, 0] S1x10000.size inb_S1x10000_S1x10000_0_0, k0_pay3 x1 (k0_pay2 (F := F))⟩,
           ⟨Rect.unit (s := S1x10000) ![0, 0] S1x10000.size inb_S1x10000_S1x10000_0_0, k0_pay2 (F := F)⟩] := by
  unfold runFirst; dsimp only; sl_unfold_words
  simp only [View.readAt_eq_ld, Memref.IsWhole.read_unread, View.ld_unit_zero (S := S10000x128) zero2,
    View.ld_unit_zero (S := S400x10000) zero2, View.ld_unit_zero (S := S128x128) zero2, View.ld_unit_zero (S := S1x128) zero2,
    View.ld_unit_zero (S := S1x10000) zero2, View.readCov_unit_zero (S := S1x10000) _ zero2, View.readCov_unit_zero (S := S10000x128) _ zero2, true_and, and_true, and_self]

set_option maxHeartbeats 1000000 in
/-- A middle point leaves: the block's rows of activations, computed from the product it found; the column sums it
    found plus the block's. -/
theorem runMid_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32) :
    (runMid c i arg1 harg1 arg2 harg2 arg3 harg3 arg4 harg4 arg5 harg5 arg6 harg6 arg7 harg7 arg8 harg8 arg9 harg9 arg10 harg10 hc0 hc1 x0 x1 x2 x3 x4 x5 x6 xs0 xs1 xs2).1
        = [⟨Rect.unit (s := S10000x128) (k0_off1 i) S400x128.size (k0_off1_inb i), k0_pay4 x1 xs0 x3⟩]
    ∧ (runMid c i arg1 harg1 arg2 harg2 arg3 harg3 arg4 harg4 arg5 harg5 arg6 harg6 arg7 harg7 arg8 harg8 arg9 harg9 arg10 harg10 hc0 hc1 x0 x1 x2 x3 x4 x5 x6 xs0 xs1 xs2).2.1
        = [⟨Rect.unit (s := S1x10000) ![0, 0] S1x10000.size inb_S1x10000_S1x10000_0_0, k0_pay3 x1 xs2⟩] := by
  unfold runMid; dsimp only; sl_unfold_words
  simp only [View.readAt_eq_ld, Memref.IsWhole.read_unread, View.ld_unit_zero (S := S10000x128) zero2,
    View.ld_unit_zero (S := S400x10000) zero2, View.ld_unit_zero (S := S128x128) zero2, View.ld_unit_zero (S := S1x128) zero2,
    View.ld_unit_zero (S := S1x10000) zero2, View.readCov_unit_zero (S := S1x10000) _ zero2, View.readCov_unit_zero (S := S10000x128) _ zero2, true_and, and_true, and_self]

set_option maxHeartbeats 1000000 in
/-- The last point leaves: the output, contracted from the column sums just updated and from the activations as they
    stand once the block's rows are written over what was found; those rows; the updated column sums. -/
theorem runLast_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : condLast i)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32) :
    (runLast c i arg1 harg1 arg2 harg2 arg3 harg3 arg4 harg4 arg5 harg5 arg6 harg6 arg7 harg7 arg8 harg8 arg9 harg9 arg10 harg10 hc0 hc1 x0 x1 x2 x3 x4 x5 xs0 xs1 xs2).1
        = [⟨Rect.unit (s := S1x128) ![0, 0] S1x128.size inb_S1x128_S1x128_0_0,
            k0_pay5 (k0_pay3 x1 xs2)
              (arg9.view.read (Elt F) (arg9.view.writes (Elt F) (harg9.unread xs1)
                [⟨Rect.unit (s := S10000x128) (k0_off1 i) S400x128.size (k0_off1_inb i), k0_pay4 x1 xs0 x3⟩])) x4 x5⟩]
    ∧ (runLast c i arg1 harg1 arg2 harg2 arg3 harg3 arg4 harg4 arg5 harg5 arg6 harg6 arg7 harg7 arg8 harg8 arg9 harg9 arg10 harg10 hc0 hc1 x0 x1 x2 x3 x4 x5 xs0 xs1 xs2).2.1
        = [⟨Rect.unit (s := S10000x128) (k0_off1 i) S400x128.size (k0_off1_inb i), k0_pay4 x1 xs0 x3⟩]
    ∧ (runLast c i arg1 harg1 arg2 harg2 arg3 harg3 arg4 harg4 arg5 harg5 arg6 harg6 arg7 harg7 arg8 harg8 arg9 harg9 arg10 harg10 hc0 hc1 x0 x1 x2 x3 x4 x5 xs0 xs1 xs2).2.2.1
        = [⟨Rect.unit (s := S1x10000) ![0, 0] S1x10000.size inb_S1x10000_S1x10000_0_0, k0_pay3 x1 xs2⟩] := by
  unfold runLast; dsimp only; sl_unfold_words
  simp only [View.readAt_eq_ld, Memref.IsWhole.read_unread, View.ld_unit_zero (S := S10000x128) zero2,
    View.ld_unit_zero (S := S400x10000) zero2, View.ld_unit_zero (S := S128x128) zero2, View.ld_unit_zero (S := S1x128) zero2,
    View.ld_unit_zero (S := S1x10000) zero2, View.readCov_unit_zero (S := S1x10000) _ zero2, View.readCov_unit_zero (S := S10000x128) _ zero2, true_and, and_true, and_self]

end Cert.Kernel.Hand

end
-- ==== Proof.KernelTrack.lean ====
/-
  What the kernel's three scratch buffers hold after each grid point, as functions of the input blocks.
  The product x·W1 is computed at the first point and never changes. The column sums of the adjacency are a running
  fold: the zero row plus the first block's sums, then each later block's sums added. The activations are filled 400
  rows per point: after point n the rows below 400·(n+1) hold relu(adj·(x·W1) + b1) of their own adjacency block, the
  rows above hold whatever the buffer held before the kernel ran. After the last point every row is filled, and the
  output is the body's contraction of the full column sums against the full activations.
-/
import proofs.«165508_g90297392431549_cont_sun_m_1291_8_alg».proof.Proof.KernelShared
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The grid point numbered `n` (numbers are taken modulo the 25 points). -/
def pt (n : ℕ) : Fin cfg0.N := ⟨n % 25, lt_of_lt_of_eq (Nat.mod_lt _ (by omega)) (show cfg0.N = 25 from N_0).symm⟩

theorem pt_val (t : Fin cfg0.N) : pt t.val = t :=
  Fin.ext (Nat.mod_eq_of_lt (lt_of_lt_of_eq t.isLt (show cfg0.N = 25 from N_0)))

theorem lt25 (t : Fin cfg0.N) : t.val < 25 := lt_of_lt_of_eq t.isLt (show cfg0.N = 25 from N_0)

/-- The product x·W1, as the first point computes it. -/
def supp (c : Dev nD) : Vec F S10000x128 .f32 := k0_pay1 (iblk m c 0 (pt 0)) (iblk m c 2 (pt 0))

/-- The column sums after point `n`. -/
def colsum (c : Dev nD) : ℕ → Vec F S1x10000 .f32
  | 0 => k0_pay3 (iblk m c 1 (pt 0)) (k0_pay2 (F := F))
  | n + 1 => k0_pay3 (iblk m c 1 (pt (n + 1))) (colsum c n)

/-- The 400 rows of activations point `s` computes. -/
def actRows (c : Dev nD) (s : ℕ) : Vec F S400x128 .f32 := k0_pay4 (iblk m c 1 (pt s)) (supp m c) (iblk m c 3 (pt s))

/-- Where an entry of the activations sits inside its block of 400 rows. -/
def rowIn (y : S10000x128.Idx) : S400x128.Idx := fun a => match a with
  | ⟨0, _⟩ => ⟨(y 0).val % 400, Nat.mod_lt _ (by omega)⟩
  | ⟨1, _⟩ => ⟨(y 1).val, (y 1).isLt⟩

/-- The full activations: row r is row r mod 400 of what point r / 400 computes. -/
def act (c : Dev nD) : Vec F S10000x128 .f32 := fun y => actRows m c ((y 0).val / 400) (rowIn y)

/-- The activations are filled through point `n`: the rows below 400·(n+1) are the final ones. -/
def ActUpTo (c : Dev nD) (n : ℕ) (d : Vec F S10000x128 .f32) : Prop :=
  ∀ y : S10000x128.Idx, (y 0).val < 400 * (n + 1) → d y = act m c y

/-- The output block the last point stores. -/
def outVal (c : Dev nD) : Vec F S1x128 .f32 :=
  k0_pay5 (colsum m c 24) (act m c) (iblk m c 4 (pt 24)) (iblk m c 5 (pt 24))

/-- The row offset of the slice of activations point `t` stores: 400·t. -/
theorem off_eq : ∀ t : Fin cfg0.N, k0_off1 (grid0.coords t) = ![400 * t.val, 0] :=
  (by decide +kernel : ∀ t : Fin grid0.N, k0_off1 (grid0.coords t) = ![400 * t.val, 0])

/-- A buffer whose newest store covers it whole reads that store's value. -/
theorem read_newest_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- ONE MORE BLOCK OF ROWS. Writing point `t`'s 400 rows over contents that are filled through the point before
    (or over anything, at the first point) gives contents filled through `t`. -/
theorem act_step (c : Dev nD) (t : Fin cfg0.N) (arg9 : Memref sig .tc .vmem S10000x128 .f32) (harg9 : arg9.IsWhole)
    (xs1 : Vec F S10000x128 .f32) (hprev : t.val = 0 ∨ ActUpTo m c (t.val - 1) xs1) :
    ActUpTo m c t.val (arg9.view.read (Elt F) (arg9.view.writes (Elt F) (harg9.unread xs1)
      [⟨Rect.unit (s := S10000x128) (k0_off1 (grid0.coords t)) S400x128.size (k0_off1_inb (grid0.coords t)),
        k0_pay4 (iblk m c 1 t) (supp m c) (iblk m c 3 t)⟩])) := by
  intro y hy
  rw [View.read_writes_cons_rows arg9.view (harg9.unread xs1) (k0_off1_inb (grid0.coords t)) _ [] y (off_eq t)
    (W := 400) rfl rfl]
  by_cases h : 400 * t.val ≤ (y 0).val ∧ (y 0).val < 400 * t.val + 400
  · rw [dif_pos h]
    have hq : (y 0).val / 400 = t.val := by omega
    unfold act actRows
    rw [hq, pt_val]
    refine congrArg _ (funext fun a => Fin.ext ?_)
    match a with
    | ⟨0, _⟩ => show (y 0).val - 400 * t.val = (y 0).val % 400; omega
    | ⟨1, _⟩ => show (y 1).val - 0 = (y 1).val; omega
  · rw [dif_neg h, View.writes_nil, harg9.read_unread]
    rcases hprev with h0 | hp
    · exfalso; omega
    · exact hp y (by omega)

/-- Filled through the last point, the activations are the full ones. -/
theorem act_full (c : Dev nD) (d : Vec F S10000x128 .f32) (h : ActUpTo m c 24 d) : d = act m c :=
  funext fun y => h y (by have := (y 0).isLt; exact lt_of_lt_of_eq this (by rfl))

end Cert.Kernel.Hand

end
-- ==== Proof.KernelSpecs.lean ====
/-
  The three runs of the body as triples over buffer CONTENTS: each buffer the body stores into is handed back owned at
  the contents its pieces leave — a buffer stored whole at the stored value, the activations at the block's rows
  written over what they held.
-/
import proofs.«165508_g90297392431549_cont_sun_m_1291_8_alg».proof.Proof.KernelPieces
import proofs.«165508_g90297392431549_cont_sun_m_1291_8_alg».proof.Proof.KernelTrack

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The activations after the body has written the block's rows `w` over the contents `xs1`. -/
abbrev actAfter (i : grid0.Coords) (arg9 : Memref sig .tc .vmem S10000x128 .f32) (harg9 : arg9.IsWhole)
    (xs1 : Vec F S10000x128 .f32) (w : Vec F S400x128 .f32) : Vec F S10000x128 .f32 :=
  arg9.view.read (Elt F) (arg9.view.writes (Elt F) (harg9.unread xs1)
    [⟨Rect.unit (s := S10000x128) (k0_off1 i) S400x128.size (k0_off1_inb i), w⟩])

set_option maxHeartbeats 800000 in
/-- The first point: the product and the column sums come back at their first values, the activations with the first
    block's rows written. -/
theorem first_spec (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs1 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay1 x0 x2)
            ∗ owns (c : Thread nD τ) arg9 fullShare (actAfter i arg9 harg9 xs1 (k0_pay4 x1 (k0_pay1 x0 x2) x3))
            ∗ owns (c : Thread nD τ) arg10 fullShare (k0_pay3 x1 (k0_pay2 (F := F)))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K := by
  have key : ∀ (r : Σ' (LS0 : List (View.Piece (Elt F) S10000x128 .f32)) (LS1 : List (View.Piece (Elt F) S10000x128 .f32)), { LS2 : List (View.Piece (Elt F) S1x10000 .f32) // FirstTriple c i arg1 harg1 arg2 harg2 arg3 harg3 arg4 harg4 arg5 harg5 arg6 harg6 arg7 harg7 arg8 harg8 arg9 harg9 arg10 harg10 x0 x1 x2 x3 x4 x5 x6 xs1 LS0 LS1 LS2 }),
      r.1 = [⟨Rect.unit (s := S10000x128) ![0, 0] S10000x128.size inb_S10000x128_S10000x128_0_0, k0_pay1 x0 x2⟩] → r.2.1 = [⟨Rect.unit (s := S10000x128) (k0_off1 i) S400x128.size (k0_off1_inb i), k0_pay4 x1 (k0_pay1 x0 x2) x3⟩] → r.2.2.1 = [⟨Rect.unit (s := S1x10000) ![0, 0] S1x10000.size inb_S1x10000_S1x10000_0_0, k0_pay3 x1 (k0_pay2 (F := F))⟩, ⟨Rect.unit (s := S1x10000) ![0, 0] S1x10000.size inb_S1x10000_S1x10000_0_0, k0_pay2 (F := F)⟩] →
      FirstTriple c i arg1 harg1 arg2 harg2 arg3 harg3 arg4 harg4 arg5 harg5 arg6 harg6 arg7 harg7 arg8 harg8 arg9 harg9 arg10 harg10 x0 x1 x2 x3 x4 x5 x6 xs1 [⟨Rect.unit (s := S10000x128) ![0, 0] S10000x128.size inb_S10000x128_S10000x128_0_0, k0_pay1 x0 x2⟩] [⟨Rect.unit (s := S10000x128) (k0_off1 i) S400x128.size (k0_off1_inb i), k0_pay4 x1 (k0_pay1 x0 x2) x3⟩] [⟨Rect.unit (s := S1x10000) ![0, 0] S1x10000.size inb_S1x10000_S1x10000_0_0, k0_pay3 x1 (k0_pay2 (F := F))⟩, ⟨Rect.unit (s := S1x10000) ![0, 0] S1x10000.size inb_S1x10000_S1x10000_0_0, k0_pay2 (F := F)⟩] := by
    rintro ⟨LS0, LS1, LS2, h⟩ e0 e1 e2
    dsimp only at e0 e1 e2
    subst e0 e1 e2
    exact h
  obtain ⟨e0, e1, e2⟩ := runFirst_pieces c i arg1 harg1 arg2 harg2 arg3 harg3 arg4 harg4 arg5 harg5 arg6 harg6 arg7 harg7 arg8 harg8 arg9 harg9 arg10 harg10 hc0 hc1 x0 x1 x2 x3 x4 x5 x6 xs1
  have h := key (runFirst c i arg1 harg1 arg2 harg2 arg3 harg3 arg4 harg4 arg5 harg5 arg6 harg6 arg7 harg7 arg8 harg8 arg9 harg9 arg10 harg10 hc0 hc1 x0 x1 x2 x3 x4 x5 x6 xs1) e0 e1 e2 E K
  refine Idealize.SL.BI.BIBase.Entails.trans ?_ h
  iintro ⟨H0, H1, H2, H3, H4, H5, H6, HS0, HS1, HS2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, ⟨%f0, HS0⟩, HS1, ⟨%f2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]
  · unfold owns; iexists _; isplitr; swap; · iexact HS0
    ipureintro; exact read_newest_whole arg8.view f0 zero2 _ _ _
  isplitl [HS1]
  · unfold owns; iexists _; isplitr; swap; · iexact HS1
    ipureintro; rfl
  unfold owns; iexists _; isplitr; swap; · iexact HS2
  ipureintro; exact read_newest_whole arg10.view f2 zero2 _ _ _

set_option maxHeartbeats 800000 in
/-- A middle point: the product comes back as found, the column sums with the block's added, the activations with the
    block's rows written. -/
theorem mid_spec (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0
            ∗ owns (c : Thread nD τ) arg9 fullShare (actAfter i arg9 harg9 xs1 (k0_pay4 x1 xs0 x3))
            ∗ owns (c : Thread nD τ) arg10 fullShare (k0_pay3 x1 xs2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K := by
  have key : ∀ (r : Σ' (LS1 : List (View.Piece (Elt F) S10000x128 .f32)), { LS2 : List (View.Piece (Elt F) S1x10000 .f32) // MidTriple c i arg1 harg1 arg2 harg2 arg3 harg3 arg4 harg4 arg5 harg5 arg6 harg6 arg7 harg7 arg8 harg8 arg9 harg9 arg10 harg10 x0 x1 x2 x3 x4 x5 x6 xs0 xs1 xs2 LS1 LS2 }),
      r.1 = [⟨Rect.unit (s := S10000x128) (k0_off1 i) S400x128.size (k0_off1_inb i), k0_pay4 x1 xs0 x3⟩] → r.2.1 = [⟨Rect.unit (s := S1x10000) ![0, 0] S1x10000.size inb_S1x10000_S1x10000_0_0, k0_pay3 x1 xs2⟩] →
      MidTriple c i arg1 harg1 arg2 harg2 arg3 harg3 arg4 harg4 arg5 harg5 arg6 harg6 arg7 harg7 arg8 harg8 arg9 harg9 arg10 harg10 x0 x1 x2 x3 x4 x5 x6 xs0 xs1 xs2 [⟨Rect.unit (s := S10000x128) (k0_off1 i) S400x128.size (k0_off1_inb i), k0_pay4 x1 xs0 x3⟩] [⟨Rect.unit (s := S1x10000) ![0, 0] S1x10000.size inb_S1x10000_S1x10000_0_0, k0_pay3 x1 xs2⟩] := by
    rintro ⟨LS1, LS2, h⟩ e1 e2
    dsimp only at e1 e2
    subst e1 e2
    exact h
  obtain ⟨e1, e2⟩ := runMid_pieces c i arg1 harg1 arg2 harg2 arg3 harg3 arg4 harg4 arg5 harg5 arg6 harg6 arg7 harg7 arg8 harg8 arg9 harg9 arg10 harg10 hc0 hc1 x0 x1 x2 x3 x4 x5 x6 xs0 xs1 xs2
  have h := key (runMid c i arg1 harg1 arg2 harg2 arg3 harg3 arg4 harg4 arg5 harg5 arg6 harg6 arg7 harg7 arg8 harg8 arg9 harg9 arg10 harg10 hc0 hc1 x0 x1 x2 x3 x4 x5 x6 xs0 xs1 xs2) e1 e2 E K
  refine Idealize.SL.BI.BIBase.Entails.trans ?_ h
  iintro ⟨H0, H1, H2, H3, H4, H5, H6, HS0, HS1, HS2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, ⟨%f2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]
  · unfold owns; iexists _; isplitr; swap; · iexact HS1
    ipureintro; rfl
  unfold owns; iexists _; isplitr; swap; · iexact HS2
  ipureintro; exact read_newest_whole arg10.view f2 zero2 _ _ _

set_option maxHeartbeats 800000 in
/-- The last point: as a middle point, and the output buffer comes back at the contraction of the updated column sums
    against the activations as they stand after the block's rows are written. -/
theorem last_spec (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : condLast i)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 (k0_pay3 x1 xs2) (actAfter i arg9 harg9 xs1 (k0_pay4 x1 xs0 x3)) x4 x5)
            ∗ owns (c : Thread nD τ) arg8 fullShare xs0
            ∗ owns (c : Thread nD τ) arg9 fullShare (actAfter i arg9 harg9 xs1 (k0_pay4 x1 xs0 x3))
            ∗ owns (c : Thread nD τ) arg10 fullShare (k0_pay3 x1 xs2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K := by
  have key : ∀ (r : Σ' (LO : List (View.Piece (Elt F) S1x128 .f32)) (LS1 : List (View.Piece (Elt F) S10000x128 .f32)), { LS2 : List (View.Piece (Elt F) S1x10000 .f32) // LastTriple c i arg1 harg1 arg2 harg2 arg3 harg3 arg4 harg4 arg5 harg5 arg6 harg6 arg7 harg7 arg8 harg8 arg9 harg9 arg10 harg10 x0 x1 x2 x3 x4 x5 xs0 xs1 xs2 LO LS1 LS2 }),
      r.1 = [⟨Rect.unit (s := S1x128) ![0, 0] S1x128.size inb_S1x128_S1x128_0_0, k0_pay5 (k0_pay3 x1 xs2) (arg9.view.read (Elt F) (arg9.view.writes (Elt F) (harg9.unread xs1) [⟨Rect.unit (s := S10000x128) (k0_off1 i) S400x128.size (k0_off1_inb i), k0_pay4 x1 xs0 x3⟩])) x4 x5⟩] → r.2.1 = [⟨Rect.unit (s := S10000x128) (k0_off1 i) S400x128.size (k0_off1_inb i), k0_pay4 x1 xs0 x3⟩] → r.2.2.1 = [⟨Rect.unit (s := S1x10000) ![0, 0] S1x10000.size inb_S1x10000_S1x10000_0_0, k0_pay3 x1 xs2⟩] →
      LastTriple c i arg1 harg1 arg2 harg2 arg3 harg3 arg4 harg4 arg5 harg5 arg6 harg6 arg7 harg7 arg8 harg8 arg9 harg9 arg10 harg10 x0 x1 x2 x3 x4 x5 xs0 xs1 xs2 [⟨Rect.unit (s := S1x128) ![0, 0] S1x128.size inb_S1x128_S1x128_0_0, k0_pay5 (k0_pay3 x1 xs2) (arg9.view.read (Elt F) (arg9.view.writes (Elt F) (harg9.unread xs1) [⟨Rect.unit (s := S10000x128) (k0_off1 i) S400x128.size (k0_off1_inb i), k0_pay4 x1 xs0 x3⟩])) x4 x5⟩] [⟨Rect.unit (s := S10000x128) (k0_off1 i) S400x128.size (k0_off1_inb i), k0_pay4 x1 xs0 x3⟩] [⟨Rect.unit (s := S1x10000) ![0, 0] S1x10000.size inb_S1x10000_S1x10000_0_0, k0_pay3 x1 xs2⟩] := by
    rintro ⟨LO, LS1, LS2, h⟩ e0 e1 e2
    dsimp only at e0 e1 e2
    subst e0 e1 e2
    exact h
  obtain ⟨e0, e1, e2⟩ := runLast_pieces c i arg1 harg1 arg2 harg2 arg3 harg3 arg4 harg4 arg5 harg5 arg6 harg6 arg7 harg7 arg8 harg8 arg9 harg9 arg10 harg10 hc0 hc1 x0 x1 x2 x3 x4 x5 xs0 xs1 xs2
  have h := key (runLast c i arg1 harg1 arg2 harg2 arg3 harg3 arg4 harg4 arg5 harg5 arg6 harg6 arg7 harg7 arg8 harg8 arg9 harg9 arg10 harg10 hc0 hc1 x0 x1 x2 x3 x4 x5 xs0 xs1 xs2) e0 e1 e2 E K
  refine Idealize.SL.BI.BIBase.Entails.trans ?_ h
  iintro ⟨H0, H1, H2, H3, H4, H5, H6, HS0, HS1, HS2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, ⟨%f6, H6⟩, HS0, HS1, ⟨%f2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact read_newest_whole arg7.view f6 zero2 _ _ _
  isplitl [HS0]; · iexact HS0
  isplitl [HS1]
  · unfold owns; iexists _; isplitr; swap; · iexact HS1
    ipureintro; rfl
  unfold owns; iexists _; isplitr; swap; · iexact HS2
  ipureintro; exact read_newest_whole arg10.view f2 zero2 _ _ _

end Cert.Kernel.Hand

end
-- ==== Proof.KernelBody.lean ====
/-
  The kernel's frame and value from the pipeline library's launch theorem: the region's invariant (after point n the product buffer holds x·W1,
  the activations are filled through point n, the column-sum buffer holds the running sums through point n), the proof
  data (every input buffer at its block; the output buffer, written back once, at the last point's contraction), the
  body obligation by cases on the point (first / middle / last), the launch, and what the output array holds at the end.
-/
import proofs.«165508_g90297392431549_cont_sun_m_1291_8_alg».proof.Proof.KernelSpecs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The column sums after a point that is not the first: the point's block added to what the point before left. -/
theorem colsum_pos (c : Dev nD) (n : ℕ) (hz : n ≠ 0) :
    colsum m c n = k0_pay3 (iblk m c 1 (pt n)) (colsum m c (n - 1)) := by
  cases n with
  | zero => exact absurd rfl hz
  | succ n => rfl

/-- THE INVARIANT before position `n`: before the first point the launch's (every scratch at anything); afterwards the
    product buffer at x·W1, the activations filled through point n-1, the column sums through point n-1. -/
def PhiS (c : Dev nD) : ℕ → sProp 𝕄
  | 0 => Pipeline.ΦA spec0 c
  | n + 1 => iprop(iprop(owns (c : Thread nD τ) scSupp fullShare (supp m c) ∗ (∃ d, ⌜ActUpTo m c n d⌝ ∗ owns (c : Thread nD τ) scAct fullShare d) ∗ owns (c : Thread nD τ) scCol fullShare (colsum m c n)) ∗ (∃ r, prngReg c r))

theorem PhiS_succ (c : Dev nD) (n : ℕ) : PhiS m c (n + 1) = iprop(iprop(owns (c : Thread nD τ) scSupp fullShare (supp m c) ∗ (∃ d, ⌜ActUpTo m c n d⌝ ∗ owns (c : Thread nD τ) scAct fullShare d) ∗ owns (c : Thread nD τ) scCol fullShare (colsum m c n)) ∗ (∃ r, prngReg c r)) := rfl

theorem PhiS_pos (c : Dev nD) (n : ℕ) (hz : n ≠ 0) : PhiS m c n = iprop(iprop(owns (c : Thread nD τ) scSupp fullShare (supp m c) ∗ (∃ d, ⌜ActUpTo m c (n - 1) d⌝ ∗ owns (c : Thread nD τ) scAct fullShare d) ∗ owns (c : Thread nD τ) scCol fullShare (colsum m c (n - 1))) ∗ (∃ r, prngReg c r)) := by
  cases n with
  | zero => exact absurd rfl hz
  | succ n => rfl

/-- The proof data: the arrays as the region finds them; every input buffer at its block; the output buffer at the
    last point's contraction; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal m c
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outVal m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]

set_option maxHeartbeats 4000000 in
/-- THE BODY AT ANY POINT. The inputs' buffers hold their blocks. At the first point the invariant hands over the
    scratch buffers at anything, and the run leaves the product, the first block's rows and the first column sums. At a
    later point it hands them over at what the point before left, and the run adds the point's rows and column sums;
    the rows below the point's were final already, so the activations are filled through the point. At the last point
    every row is then final, and the output buffer receives the contraction of the full column sums against the full
    activations. At the other points the output buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  rw [leaves_0, leaves_1, leaves_2, leaves_3, leaves_4, leaves_5]
  have hN : t.val < 25 := lt25 t
  by_cases h0 : t.val = 0
  · -- the first point
    have hcI : condInit (grid0.coords t) := (condInit_iff t).mpr h0
    have hcL : ¬condLast (grid0.coords t) := fun h => by have := (condLast_iff t).mp h; omega
    rw [Dat.leavesExact_idle (dats m 0 c) 6 t (idle6 t hcL) (noFlush6 t hcL)]
    have e0 : PhiS m c t.val = Pipeline.ΦA spec0 c := by rw [h0]; rfl
    have ecs : colsum m c t.val = k0_pay3 (iblk m c 1 t) (k0_pay2 (F := F)) := by
      rw [h0]; show k0_pay3 (iblk m c 1 (pt 0)) _ = _; rw [← h0, pt_val]
    have esu : supp m c = k0_pay1 (iblk m c 0 t) (iblk m c 2 t) := by
      show k0_pay1 (iblk m c 0 (pt 0)) (iblk m c 2 (pt 0)) = _; rw [← h0, pt_val]
    rw [e0, PhiA_open, ecs]
    iintro ⟨⟨⟨HS0, ⟨%d1, HS1⟩, HS2⟩, Hg⟩, Ho, ⟨%e0', H0⟩, ⟨%e1', H1⟩, ⟨%e2', H2⟩, ⟨%e3', H3⟩, ⟨%e4', H4⟩, ⟨%e5', H5⟩, ⟨%d6, H6⟩⟩
    iapply (first_spec c (grid0.coords t) (ms0 t) (hs0 t) (ms1 t) (hs1 t) (ms2 t) (hs2 t) (ms3 t) (hs3 t) (ms4 t) (hs4 t) (ms5 t) (hs5 t) (ms6 t) (hs6 t) scSupp (Memref.isWhole_whole _) scAct (Memref.isWhole_whole _) scCol (Memref.isWhole_whole _) hcI hcL (iblk m c 0 t) (iblk m c 1 t) (iblk m c 2 t) (iblk m c 3 t) (iblk m c 4 t) (iblk m c 5 t) ((dats m 0 c).before 6 t d6) d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · rw [esu]; iexact HS0
        isplitl [HS1]
        · iexists _; isplitr; swap; · iexact HS1
          ipureintro
          have hs := act_step m c t scAct (Memref.isWhole_whole _) d1 (Or.inl h0)
          rw [esu] at hs
          exact hs
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 24
    · -- the last point
      have hcI : ¬condInit (grid0.coords t) := fun h => h0 ((condInit_iff t).mp h)
      have hcL : condLast (grid0.coords t) := (condLast_iff t).mpr h1
      rw [show (dats m 0 c).leavesExact 6 t = owns (c : Thread nD τ) (ms6 t) fullShare ((dats m 0 c).after 6 t) from by
        unfold Dat.leavesExact; rw [live6 t hcL], after_6]
      rw [PhiS_pos m c _ h0, colsum_pos m c t.val h0, pt_val]
      have eout : outVal m c = k0_pay5 (k0_pay3 (iblk m c 1 t) (colsum m c (t.val - 1))) (act m c) (iblk m c 4 t) (iblk m c 5 t) := by
        have e24 : colsum m c 24 = k0_pay3 (iblk m c 1 (pt 24)) (colsum m c 23) := rfl
        have e23 : t.val - 1 = 23 := by omega
        unfold outVal; rw [e24, e23, ← h1, pt_val]
      rw [eout]
      iintro ⟨⟨⟨HS0, ⟨%d1, %hd1, HS1⟩, HS2⟩, Hg⟩, Ho, ⟨%e0', H0⟩, ⟨%e1', H1⟩, ⟨%e2', H2⟩, ⟨%e3', H3⟩, ⟨%e4', H4⟩, ⟨%e5', H5⟩, ⟨%d6, H6⟩⟩
      have hs := act_step m c t scAct (Memref.isWhole_whole _) d1 (Or.inr hd1)
      have hfull : actAfter (grid0.coords t) scAct (Memref.isWhole_whole _) d1 (k0_pay4 (iblk m c 1 t) (supp m c) (iblk m c 3 t)) = act m c :=
        act_full m c _ (by rw [h1] at hs; exact hs)
      iapply (last_spec c (grid0.coords t) (ms0 t) (hs0 t) (ms1 t) (hs1 t) (ms2 t) (hs2 t) (ms3 t) (hs3 t) (ms4 t) (hs4 t) (ms5 t) (hs5 t) (ms6 t) (hs6 t) scSupp (Memref.isWhole_whole _) scAct (Memref.isWhole_whole _) scCol (Memref.isWhole_whole _) hcI hcL (iblk m c 0 t) (iblk m c 1 t) (iblk m c 2 t) (iblk m c 3 t) (iblk m c 4 t) (iblk m c 5 t) (supp m c) d1 (colsum m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      rw [hfull]
      iintro ⟨H0, H1, H2, H3, H4, H5, H6, HS0, HS1, HS2⟩
      isplitl [HS0 HS1 HS2 Hg]
      · isplitl [HS0 HS1 HS2]
        · isplitl [HS0]; · iexact HS0
          isplitl [HS1]
          · iexists _; isplitr; swap; · iexact HS1
            ipureintro
            intro y _; rfl
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hcI : ¬condInit (grid0.coords t) := fun h => h0 ((condInit_iff t).mp h)
      have hcL : ¬condLast (grid0.coords t) := fun h => h1 ((condLast_iff t).mp h)
      rw [Dat.leavesExact_idle (dats m 0 c) 6 t (idle6 t hcL) (noFlush6 t hcL)]
      rw [PhiS_pos m c _ h0, colsum_pos m c t.val h0, pt_val]
      iintro ⟨⟨⟨HS0, ⟨%d1, %hd1, HS1⟩, HS2⟩, Hg⟩, Ho, ⟨%e0', H0⟩, ⟨%e1', H1⟩, ⟨%e2', H2⟩, ⟨%e3', H3⟩, ⟨%e4', H4⟩, ⟨%e5', H5⟩, ⟨%d6, H6⟩⟩
      iapply (mid_spec c (grid0.coords t) (ms0 t) (hs0 t) (ms1 t) (hs1 t) (ms2 t) (hs2 t) (ms3 t) (hs3 t) (ms4 t) (hs4 t) (ms5 t) (hs5 t) (ms6 t) (hs6 t) scSupp (Memref.isWhole_whole _) scAct (Memref.isWhole_whole _) scCol (Memref.isWhole_whole _) hcI hcL (iblk m c 0 t) (iblk m c 1 t) (iblk m c 2 t) (iblk m c 3 t) (iblk m c 4 t) (iblk m c 5 t) ((dats m 0 c).before 6 t d6) (supp m c) d1 (colsum m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]
          · iexists _; isplitr; swap; · iexact HS1
            ipureintro
            exact act_step m c t scAct (Memref.isWhole_whole _) d1 (Or.inr hd1)
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 :=
  Idealize.SL.BI.Entails.refl _

/-- After the last point the invariant gives the launch's back: the scratch buffers' contents are forgotten. -/
theorem hout (c : Dev nD) : (dats m 0 c).Φ (Fin.last cfg0.N) ⊢ Pipeline.ΦA spec0 c := by
  rw [show (dats m 0 c).Φ (Fin.last cfg0.N) = PhiS m c 25 from rfl, PhiS_succ, PhiA_open]
  iintro ⟨⟨HS0, ⟨%d, -, HS1⟩, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- THE RUN: every weakly fair execution of @main terminates, every array of the pipeline at what the library computes
    from the proof data and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.IdealShared.lean ====
/-
  What the three runs of the kernel body share: the two branch conditions of the body (the first grid point
  initialises the two accumulators, the last one contracts them into the output) decided over the 25 grid points,
  the points at which the output window is idle, the staging memrefs the pipeline calls the body with, the three
  scratch buffers (the product x·W1, the rectified activations, the column sums of the adjacency) and the region's
  invariant opened over them.
-/
import proofs.«165508_g90297392431549_cont_sun_m_1291_8_alg».proof.Proof.Gen.KernelIdeal.Frame
import proofs.«165508_g90297392431549_cont_sun_m_1291_8_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The body's first branch: the grid coordinate is zero. -/
abbrev condInit (i : grid0.Coords) : Prop := (Scalar.cmpi .ne (Scalar.extui (Scalar.cmpi .eq (BitVec.ofNat 32 (i 0).val) 0#32)) 0#32) = 1#1
theorem condInit_iff : ∀ t : Fin cfg0.N, condInit (grid0.coords t) ↔ t.val = 0 :=
  (by decide +kernel : ∀ t : Fin grid0.N, condInit (grid0.coords t) ↔ t.val = 0)

/-- The body's second branch: the grid coordinate is the last one, 24. -/
abbrev condLast (i : grid0.Coords) : Prop := k0_cond2 i = 1#1
theorem condLast_iff : ∀ t : Fin cfg0.N, condLast (grid0.coords t) ↔ t.val = 24 :=
  (by decide +kernel : ∀ t : Fin grid0.N, condLast (grid0.coords t) ↔ t.val = 24)

/-- The six input windows are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is stored only at the last point: idle, and not written back, everywhere else. -/
theorem idle6 : ∀ t : Fin cfg0.N, ¬condLast (grid0.coords t) → cfg0.idle 6 (grid0.coords t) = true := by decide +kernel
theorem noFlush6 : ∀ t : Fin cfg0.N, ¬condLast (grid0.coords t) → (cfg0.win 6).flush t = false := by decide +kernel
theorem live6 : ∀ t : Fin cfg0.N, condLast (grid0.coords t) → cfg0.idle 6 (grid0.coords t) = false := by decide +kernel

/-- The staging memref of each window at point `t`, as the pipeline passes it to the body, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)

/-- The scratch buffers: the product x·W1, the rectified activations, the column sums. -/
abbrev scSupp : Memref sig .tc .vmem S10000x128 .f32 := Memref.whole cc0_scratch0
abbrev scAct : Memref sig .tc .vmem S10000x128 .f32 := Memref.whole cc0_scratch1
abbrev scCol : Memref sig .tc .vmem S1x10000 .f32 := Memref.whole cc0_scratch2

/-- The region's invariant as the launch hands it over: each scratch buffer owned at some contents, and the generator
    register at some state. -/
theorem PhiA_open (c : Dev nD) :
    (Pipeline.ΦA spec0 c : sProp 𝕄)
      = iprop(iprop((∃ d, owns (c : Thread nD τ) scSupp fullShare d) ∗ (∃ d, owns (c : Thread nD τ) scAct fullShare d) ∗ (∃ d, owns (c : Thread nD τ) scCol fullShare d)) ∗ (∃ r, prngReg c r)) := by
  unfold Pipeline.ΦA; rw [scopedRest0_eq]; simp only [scSupp, scAct, scCol, owns_whole]; try rfl

end Cert.KernelIdeal.Hand

end
-- ==== Proof.IdealRunFirst.lean ====
/-
  The body at the first grid point (the initialising branch taken, the contracting branch skipped): it stores the
  product x·W1 and a zero row of column sums, then adds the block's column sums and stores the block's 400 rows of
  rectified activations. The output buffer is not touched.
-/
import proofs.«165508_g90297392431549_cont_sun_m_1291_8_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The first point's triple over the piece lists `LS0` (product), `LS1` (activations), `LS2` (column sums). -/
def FirstTriple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32)
    (LS0 : List (View.Piece (Elt F) S10000x128 .f32)) (LS1 : List (View.Piece (Elt F) S10000x128 .f32)) (LS2 : List (View.Piece (Elt F) S1x10000 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs1 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f LS0) ∗ (arg9.view.loc (c : Thread nD τ) ↦[arg9.view.set]{fullShare} arg9.view.writes (Elt F) (harg9.unread xs1) LS1) ∗ (∃ f, arg10.view.loc (c : Thread nD τ) ↦[arg10.view.set]{fullShare} arg10.view.writes (Elt F) f LS2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K

set_option maxHeartbeats 4000000 in
/-- The first point's run: the inputs and the output buffer handed back as found, the product and the column sums
    stored whole, the activations with one slice written over whatever the buffer held. -/
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32) :
    Σ' (LS0 : List (View.Piece (Elt F) S10000x128 .f32)) (LS1 : List (View.Piece (Elt F) S10000x128 .f32)), { LS2 : List (View.Piece (Elt F) S1x10000 .f32) //
      FirstTriple c i arg1 harg1 arg2 harg2 arg3 harg3 arg4 harg4 arg5 harg5 arg6 harg6 arg7 harg7 arg8 harg8 arg9 harg9 arg10 harg10 x0 x1 x2 x3 x4 x5 x6 xs1 LS0 LS1 LS2 } := by
  refine ⟨?_, ?_, ?_, ?run⟩
  case run =>
    unfold FirstTriple; intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; iexact HS0
    isplitl [HS1]
    · iexact HS1
    iexists _; iexact HS2

end Cert.KernelIdeal.Hand

end
-- ==== Proof.IdealRunMid.lean ====
/-
  The body at a grid point that is neither the first nor the last (both branches skipped): it adds the block's column
  sums to the running ones and stores the block's 400 rows of rectified activations. The product x·W1 is read, not
  written; the output buffer is not touched.
-/
import proofs.«165508_g90297392431549_cont_sun_m_1291_8_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- A middle point's triple over the piece lists `LS1` (activations), `LS2` (column sums). -/
def MidTriple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32)
    (LS1 : List (View.Piece (Elt F) S10000x128 .f32)) (LS2 : List (View.Piece (Elt F) S1x10000 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ (arg9.view.loc (c : Thread nD τ) ↦[arg9.view.set]{fullShare} arg9.view.writes (Elt F) (harg9.unread xs1) LS1) ∗ (∃ f, arg10.view.loc (c : Thread nD τ) ↦[arg10.view.set]{fullShare} arg10.view.writes (Elt F) f LS2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K

set_option maxHeartbeats 4000000 in
/-- A middle point's run: the inputs, the output buffer and the product handed back as found, the column sums stored
    whole, the activations with one slice written over what the points before left. -/
noncomputable def runMid (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32) :
    Σ' (LS1 : List (View.Piece (Elt F) S10000x128 .f32)), { LS2 : List (View.Piece (Elt F) S1x10000 .f32) //
      MidTriple c i arg1 harg1 arg2 harg2 arg3 harg3 arg4 harg4 arg5 harg5 arg6 harg6 arg7 harg7 arg8 harg8 arg9 harg9 arg10 harg10 x0 x1 x2 x3 x4 x5 x6 xs0 xs1 xs2 LS1 LS2 } := by
  refine ⟨?_, ?_, ?run⟩
  case run =>
    unfold MidTriple; intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexact HS1
    iexists _; iexact HS2

end Cert.KernelIdeal.Hand

end
-- ==== Proof.IdealRunLast.lean ====
/-
  The body at the last grid point (the initialising branch skipped, the contracting branch taken): it adds the block's
  column sums to the running ones, stores the block's 400 rows of rectified activations, and then contracts the column
  sums against ALL the activations, multiplies by W2, scales by 1/10000 and adds the second bias into the output buffer.
  The pieces each buffer ends with are the ones the symbolic run finds.
-/
import proofs.«165508_g90297392431549_cont_sun_m_1291_8_alg».proof.Proof.IdealShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The last point's triple over the piece lists `LO` (output), `LS1` (activations), `LS2` (column sums). -/
def LastTriple (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32)
    (LO : List (View.Piece (Elt F) S1x128 .f32)) (LS1 : List (View.Piece (Elt F) S10000x128 .f32)) (LS2 : List (View.Piece (Elt F) S1x10000 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LO) ∗ owns (c : Thread nD τ) arg8 fullShare xs0 ∗ (arg9.view.loc (c : Thread nD τ) ↦[arg9.view.set]{fullShare} arg9.view.writes (Elt F) (harg9.unread xs1) LS1) ∗ (∃ f, arg10.view.loc (c : Thread nD τ) ↦[arg10.view.set]{fullShare} arg10.view.writes (Elt F) f LS2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K

set_option maxHeartbeats 4000000 in
/-- The last point's run: the inputs handed back as found, the product buffer untouched, the activations with one slice
    written over what the points before left, the column sums and the output each stored whole. -/
noncomputable def runLast (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : condLast i)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32) :
    Σ' (LO : List (View.Piece (Elt F) S1x128 .f32)) (LS1 : List (View.Piece (Elt F) S10000x128 .f32)), { LS2 : List (View.Piece (Elt F) S1x10000 .f32) //
      LastTriple c i arg1 harg1 arg2 harg2 arg3 harg3 arg4 harg4 arg5 harg5 arg6 harg6 arg7 harg7 arg8 harg8 arg9 harg9 arg10 harg10 x0 x1 x2 x3 x4 x5 xs0 xs1 xs2 LO LS1 LS2 } := by
  refine ⟨?_, ?_, ?_, ?run⟩
  case run =>
    unfold LastTriple; intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [HS0]
    · iexists _; isplitr; · ipureintro; exact harg8.read_unread _
      iexact HS0
    isplitl [HS1]
    · iexact HS1
    iexists _; iexact HS2

end Cert.KernelIdeal.Hand

end
-- ==== Proof.IdealPieces.lean ====
/-
  The pieces the three runs of the body leave, written out. A load of a whole buffer reads its contents, a load of a
  buffer one whole store has just covered reads that store's value; so each piece's value is one of the body's five
  pure functions of the contents the buffers were found at:
    the product x·W1; the zero row; the running column sums plus the block's; the block's rectified rows; the output.
  Only the last point's output reads a buffer that a store covered in part: the activations, the block's 400 rows
  written over what the earlier points left.
-/
import proofs.«165508_g90297392431549_cont_sun_m_1291_8_alg».proof.Proof.IdealRunFirst
import proofs.«165508_g90297392431549_cont_sun_m_1291_8_alg».proof.Proof.IdealRunMid
import proofs.«165508_g90297392431549_cont_sun_m_1291_8_alg».proof.Proof.IdealRunLast
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The two zero offsets, as the constant function. -/
theorem zero2 : (![0, 0] : Fin 2 → ℕ) = fun _ => 0 := by
  funext a; fin_cases a <;> rfl

set_option maxHeartbeats 1000000 in
/-- The first point leaves: the product stored whole; the block's rows of activations, computed from that product;
    the column sums, the block's added to the zero row just stored. -/
theorem runFirst_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32) :
    (runFirst c i arg1 harg1 arg2 harg2 arg3 harg3 arg4 harg4 arg5 harg5 arg6 harg6 arg7 harg7 arg8 harg8 arg9 harg9 arg10 harg10 hc0 hc1 x0 x1 x2 x3 x4 x5 x6 xs1).1
        = [⟨Rect.unit (s := S10000x128) ![0, 0] S10000x128.size inb_S10000x128_S10000x128_0_0, k0_pay1 x0 x2⟩]
    ∧ (runFirst c i arg1 harg1 arg2 harg2 arg3 harg3 arg4 harg4 arg5 harg5 arg6 harg6 arg7 harg7 arg8 harg8 arg9 harg9 arg10 harg10 hc0 hc1 x0 x1 x2 x3 x4 x5 x6 xs1).2.1
        = [⟨Rect.unit (s := S10000x128) (k0_off1 i) S400x128.size (k0_off1_inb i), k0_pay4 x1 (k0_pay1 x0 x2) x3⟩]
    ∧ (runFirst c i arg1 harg1 arg2 harg2 arg3 harg3 arg4 harg4 arg5 harg5 arg6 harg6 arg7 harg7 arg8 harg8 arg9 harg9 arg10 harg10 hc0 hc1 x0 x1 x2 x3 x4 x5 x6 xs1).2.2.1
        = [⟨Rect.unit (s := S1x10000) ![0, 0] S1x10000.size inb_S1x10000_S1x10000_0_0, k0_pay3 x1 (k0_pay2 (F := F))⟩,
           ⟨Rect.unit (s := S1x10000) ![0, 0] S1x10000.size inb_S1x10000_S1x10000_0_0, k0_pay2 (F := F)⟩] := by
  unfold runFirst; dsimp only; sl_unfold_words
  simp only [View.readAt_eq_ld, Memref.IsWhole.read_unread, View.ld_unit_zero (S := S10000x128) zero2,
    View.ld_unit_zero (S := S400x10000) zero2, View.ld_unit_zero (S := S128x128) zero2, View.ld_unit_zero (S := S1x128) zero2,
    View.ld_unit_zero (S := S1x10000) zero2, View.readCov_unit_zero (S := S1x10000) _ zero2, View.readCov_unit_zero (S := S10000x128) _ zero2, true_and, and_true, and_self]

set_option maxHeartbeats 1000000 in
/-- A middle point leaves: the block's rows of activations, computed from the product it found; the column sums it
    found plus the block's. -/
theorem runMid_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32) :
    (runMid c i arg1 harg1 arg2 harg2 arg3 harg3 arg4 harg4 arg5 harg5 arg6 harg6 arg7 harg7 arg8 harg8 arg9 harg9 arg10 harg10 hc0 hc1 x0 x1 x2 x3 x4 x5 x6 xs0 xs1 xs2).1
        = [⟨Rect.unit (s := S10000x128) (k0_off1 i) S400x128.size (k0_off1_inb i), k0_pay4 x1 xs0 x3⟩]
    ∧ (runMid c i arg1 harg1 arg2 harg2 arg3 harg3 arg4 harg4 arg5 harg5 arg6 harg6 arg7 harg7 arg8 harg8 arg9 harg9 arg10 harg10 hc0 hc1 x0 x1 x2 x3 x4 x5 x6 xs0 xs1 xs2).2.1
        = [⟨Rect.unit (s := S1x10000) ![0, 0] S1x10000.size inb_S1x10000_S1x10000_0_0, k0_pay3 x1 xs2⟩] := by
  unfold runMid; dsimp only; sl_unfold_words
  simp only [View.readAt_eq_ld, Memref.IsWhole.read_unread, View.ld_unit_zero (S := S10000x128) zero2,
    View.ld_unit_zero (S := S400x10000) zero2, View.ld_unit_zero (S := S128x128) zero2, View.ld_unit_zero (S := S1x128) zero2,
    View.ld_unit_zero (S := S1x10000) zero2, View.readCov_unit_zero (S := S1x10000) _ zero2, View.readCov_unit_zero (S := S10000x128) _ zero2, true_and, and_true, and_self]

set_option maxHeartbeats 1000000 in
/-- The last point leaves: the output, contracted from the column sums just updated and from the activations as they
    stand once the block's rows are written over what was found; those rows; the updated column sums. -/
theorem runLast_pieces (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : condLast i)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32) :
    (runLast c i arg1 harg1 arg2 harg2 arg3 harg3 arg4 harg4 arg5 harg5 arg6 harg6 arg7 harg7 arg8 harg8 arg9 harg9 arg10 harg10 hc0 hc1 x0 x1 x2 x3 x4 x5 xs0 xs1 xs2).1
        = [⟨Rect.unit (s := S1x128) ![0, 0] S1x128.size inb_S1x128_S1x128_0_0,
            k0_pay5 (k0_pay3 x1 xs2)
              (arg9.view.read (Elt F) (arg9.view.writes (Elt F) (harg9.unread xs1)
                [⟨Rect.unit (s := S10000x128) (k0_off1 i) S400x128.size (k0_off1_inb i), k0_pay4 x1 xs0 x3⟩])) x4 x5⟩]
    ∧ (runLast c i arg1 harg1 arg2 harg2 arg3 harg3 arg4 harg4 arg5 harg5 arg6 harg6 arg7 harg7 arg8 harg8 arg9 harg9 arg10 harg10 hc0 hc1 x0 x1 x2 x3 x4 x5 xs0 xs1 xs2).2.1
        = [⟨Rect.unit (s := S10000x128) (k0_off1 i) S400x128.size (k0_off1_inb i), k0_pay4 x1 xs0 x3⟩]
    ∧ (runLast c i arg1 harg1 arg2 harg2 arg3 harg3 arg4 harg4 arg5 harg5 arg6 harg6 arg7 harg7 arg8 harg8 arg9 harg9 arg10 harg10 hc0 hc1 x0 x1 x2 x3 x4 x5 xs0 xs1 xs2).2.2.1
        = [⟨Rect.unit (s := S1x10000) ![0, 0] S1x10000.size inb_S1x10000_S1x10000_0_0, k0_pay3 x1 xs2⟩] := by
  unfold runLast; dsimp only; sl_unfold_words
  simp only [View.readAt_eq_ld, Memref.IsWhole.read_unread, View.ld_unit_zero (S := S10000x128) zero2,
    View.ld_unit_zero (S := S400x10000) zero2, View.ld_unit_zero (S := S128x128) zero2, View.ld_unit_zero (S := S1x128) zero2,
    View.ld_unit_zero (S := S1x10000) zero2, View.readCov_unit_zero (S := S1x10000) _ zero2, View.readCov_unit_zero (S := S10000x128) _ zero2, true_and, and_true, and_self]

end Cert.KernelIdeal.Hand

end
-- ==== Proof.IdealTrack.lean ====
/-
  What the kernel's three scratch buffers hold after each grid point, as functions of the input blocks.
  The product x·W1 is computed at the first point and never changes. The column sums of the adjacency are a running
  fold: the zero row plus the first block's sums, then each later block's sums added. The activations are filled 400
  rows per point: after point n the rows below 400·(n+1) hold relu(adj·(x·W1) + b1) of their own adjacency block, the
  rows above hold whatever the buffer held before the kernel ran. After the last point every row is filled, and the
  output is the body's contraction of the full column sums against the full activations.
-/
import proofs.«165508_g90297392431549_cont_sun_m_1291_8_alg».proof.Proof.IdealShared
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

/-- The grid point numbered `n` (numbers are taken modulo the 25 points). -/
def pt (n : ℕ) : Fin cfg0.N := ⟨n % 25, lt_of_lt_of_eq (Nat.mod_lt _ (by omega)) (show cfg0.N = 25 from N_0).symm⟩

theorem pt_val (t : Fin cfg0.N) : pt t.val = t :=
  Fin.ext (Nat.mod_eq_of_lt (lt_of_lt_of_eq t.isLt (show cfg0.N = 25 from N_0)))

theorem lt25 (t : Fin cfg0.N) : t.val < 25 := lt_of_lt_of_eq t.isLt (show cfg0.N = 25 from N_0)

/-- The product x·W1, as the first point computes it. -/
def supp (c : Dev nD) : Vec F S10000x128 .f32 := k0_pay1 (iblk m c 0 (pt 0)) (iblk m c 2 (pt 0))

/-- The column sums after point `n`. -/
def colsum (c : Dev nD) : ℕ → Vec F S1x10000 .f32
  | 0 => k0_pay3 (iblk m c 1 (pt 0)) (k0_pay2 (F := F))
  | n + 1 => k0_pay3 (iblk m c 1 (pt (n + 1))) (colsum c n)

/-- The 400 rows of activations point `s` computes. -/
def actRows (c : Dev nD) (s : ℕ) : Vec F S400x128 .f32 := k0_pay4 (iblk m c 1 (pt s)) (supp m c) (iblk m c 3 (pt s))

/-- Where an entry of the activations sits inside its block of 400 rows. -/
def rowIn (y : S10000x128.Idx) : S400x128.Idx := fun a => match a with
  | ⟨0, _⟩ => ⟨(y 0).val % 400, Nat.mod_lt _ (by omega)⟩
  | ⟨1, _⟩ => ⟨(y 1).val, (y 1).isLt⟩

/-- The full activations: row r is row r mod 400 of what point r / 400 computes. -/
def act (c : Dev nD) : Vec F S10000x128 .f32 := fun y => actRows m c ((y 0).val / 400) (rowIn y)

/-- The activations are filled through point `n`: the rows below 400·(n+1) are the final ones. -/
def ActUpTo (c : Dev nD) (n : ℕ) (d : Vec F S10000x128 .f32) : Prop :=
  ∀ y : S10000x128.Idx, (y 0).val < 400 * (n + 1) → d y = act m c y

/-- The output block the last point stores. -/
def outVal (c : Dev nD) : Vec F S1x128 .f32 :=
  k0_pay5 (colsum m c 24) (act m c) (iblk m c 4 (pt 24)) (iblk m c 5 (pt 24))

/-- The row offset of the slice of activations point `t` stores: 400·t. -/
theorem off_eq : ∀ t : Fin cfg0.N, k0_off1 (grid0.coords t) = ![400 * t.val, 0] :=
  (by decide +kernel : ∀ t : Fin grid0.N, k0_off1 (grid0.coords t) = ![400 * t.val, 0])

/-- A buffer whose newest store covers it whole reads that store's value. -/
theorem read_newest_whole {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- ONE MORE BLOCK OF ROWS. Writing point `t`'s 400 rows over contents that are filled through the point before
    (or over anything, at the first point) gives contents filled through `t`. -/
theorem act_step (c : Dev nD) (t : Fin cfg0.N) (arg9 : Memref sig .tc .vmem S10000x128 .f32) (harg9 : arg9.IsWhole)
    (xs1 : Vec F S10000x128 .f32) (hprev : t.val = 0 ∨ ActUpTo m c (t.val - 1) xs1) :
    ActUpTo m c t.val (arg9.view.read (Elt F) (arg9.view.writes (Elt F) (harg9.unread xs1)
      [⟨Rect.unit (s := S10000x128) (k0_off1 (grid0.coords t)) S400x128.size (k0_off1_inb (grid0.coords t)),
        k0_pay4 (iblk m c 1 t) (supp m c) (iblk m c 3 t)⟩])) := by
  intro y hy
  rw [View.read_writes_cons_rows arg9.view (harg9.unread xs1) (k0_off1_inb (grid0.coords t)) _ [] y (off_eq t)
    (W := 400) rfl rfl]
  by_cases h : 400 * t.val ≤ (y 0).val ∧ (y 0).val < 400 * t.val + 400
  · rw [dif_pos h]
    have hq : (y 0).val / 400 = t.val := by omega
    unfold act actRows
    rw [hq, pt_val]
    refine congrArg _ (funext fun a => Fin.ext ?_)
    match a with
    | ⟨0, _⟩ => show (y 0).val - 400 * t.val = (y 0).val % 400; omega
    | ⟨1, _⟩ => show (y 1).val - 0 = (y 1).val; omega
  · rw [dif_neg h, View.writes_nil, harg9.read_unread]
    rcases hprev with h0 | hp
    · exfalso; omega
    · exact hp y (by omega)

/-- Filled through the last point, the activations are the full ones. -/
theorem act_full (c : Dev nD) (d : Vec F S10000x128 .f32) (h : ActUpTo m c 24 d) : d = act m c :=
  funext fun y => h y (by have := (y 0).isLt; exact lt_of_lt_of_eq this (by rfl))

end Cert.KernelIdeal.Hand

end
-- ==== Proof.IdealSpecs.lean ====
/-
  The three runs of the body as triples over buffer CONTENTS: each buffer the body stores into is handed back owned at
  the contents its pieces leave — a buffer stored whole at the stored value, the activations at the block's rows
  written over what they held.
-/
import proofs.«165508_g90297392431549_cont_sun_m_1291_8_alg».proof.Proof.IdealPieces
import proofs.«165508_g90297392431549_cont_sun_m_1291_8_alg».proof.Proof.IdealTrack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The activations after the body has written the block's rows `w` over the contents `xs1`. -/
abbrev actAfter (i : grid0.Coords) (arg9 : Memref sig .tc .vmem S10000x128 .f32) (harg9 : arg9.IsWhole)
    (xs1 : Vec F S10000x128 .f32) (w : Vec F S400x128 .f32) : Vec F S10000x128 .f32 :=
  arg9.view.read (Elt F) (arg9.view.writes (Elt F) (harg9.unread xs1)
    [⟨Rect.unit (s := S10000x128) (k0_off1 i) S400x128.size (k0_off1_inb i), w⟩])

set_option maxHeartbeats 800000 in
/-- The first point: the product and the column sums come back at their first values, the activations with the first
    block's rows written. -/
theorem first_spec (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs1 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs1 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay1 x0 x2)
            ∗ owns (c : Thread nD τ) arg9 fullShare (actAfter i arg9 harg9 xs1 (k0_pay4 x1 (k0_pay1 x0 x2) x3))
            ∗ owns (c : Thread nD τ) arg10 fullShare (k0_pay3 x1 (k0_pay2 (F := F)))) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K := by
  have key : ∀ (r : Σ' (LS0 : List (View.Piece (Elt F) S10000x128 .f32)) (LS1 : List (View.Piece (Elt F) S10000x128 .f32)), { LS2 : List (View.Piece (Elt F) S1x10000 .f32) // FirstTriple c i arg1 harg1 arg2 harg2 arg3 harg3 arg4 harg4 arg5 harg5 arg6 harg6 arg7 harg7 arg8 harg8 arg9 harg9 arg10 harg10 x0 x1 x2 x3 x4 x5 x6 xs1 LS0 LS1 LS2 }),
      r.1 = [⟨Rect.unit (s := S10000x128) ![0, 0] S10000x128.size inb_S10000x128_S10000x128_0_0, k0_pay1 x0 x2⟩] → r.2.1 = [⟨Rect.unit (s := S10000x128) (k0_off1 i) S400x128.size (k0_off1_inb i), k0_pay4 x1 (k0_pay1 x0 x2) x3⟩] → r.2.2.1 = [⟨Rect.unit (s := S1x10000) ![0, 0] S1x10000.size inb_S1x10000_S1x10000_0_0, k0_pay3 x1 (k0_pay2 (F := F))⟩, ⟨Rect.unit (s := S1x10000) ![0, 0] S1x10000.size inb_S1x10000_S1x10000_0_0, k0_pay2 (F := F)⟩] →
      FirstTriple c i arg1 harg1 arg2 harg2 arg3 harg3 arg4 harg4 arg5 harg5 arg6 harg6 arg7 harg7 arg8 harg8 arg9 harg9 arg10 harg10 x0 x1 x2 x3 x4 x5 x6 xs1 [⟨Rect.unit (s := S10000x128) ![0, 0] S10000x128.size inb_S10000x128_S10000x128_0_0, k0_pay1 x0 x2⟩] [⟨Rect.unit (s := S10000x128) (k0_off1 i) S400x128.size (k0_off1_inb i), k0_pay4 x1 (k0_pay1 x0 x2) x3⟩] [⟨Rect.unit (s := S1x10000) ![0, 0] S1x10000.size inb_S1x10000_S1x10000_0_0, k0_pay3 x1 (k0_pay2 (F := F))⟩, ⟨Rect.unit (s := S1x10000) ![0, 0] S1x10000.size inb_S1x10000_S1x10000_0_0, k0_pay2 (F := F)⟩] := by
    rintro ⟨LS0, LS1, LS2, h⟩ e0 e1 e2
    dsimp only at e0 e1 e2
    subst e0 e1 e2
    exact h
  obtain ⟨e0, e1, e2⟩ := runFirst_pieces c i arg1 harg1 arg2 harg2 arg3 harg3 arg4 harg4 arg5 harg5 arg6 harg6 arg7 harg7 arg8 harg8 arg9 harg9 arg10 harg10 hc0 hc1 x0 x1 x2 x3 x4 x5 x6 xs1
  have h := key (runFirst c i arg1 harg1 arg2 harg2 arg3 harg3 arg4 harg4 arg5 harg5 arg6 harg6 arg7 harg7 arg8 harg8 arg9 harg9 arg10 harg10 hc0 hc1 x0 x1 x2 x3 x4 x5 x6 xs1) e0 e1 e2 E K
  refine Idealize.SL.BI.BIBase.Entails.trans ?_ h
  iintro ⟨H0, H1, H2, H3, H4, H5, H6, HS0, HS1, HS2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, ⟨%f0, HS0⟩, HS1, ⟨%f2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]
  · unfold owns; iexists _; isplitr; swap; · iexact HS0
    ipureintro; exact read_newest_whole arg8.view f0 zero2 _ _ _
  isplitl [HS1]
  · unfold owns; iexists _; isplitr; swap; · iexact HS1
    ipureintro; rfl
  unfold owns; iexists _; isplitr; swap; · iexact HS2
  ipureintro; exact read_newest_whole arg10.view f2 zero2 _ _ _

set_option maxHeartbeats 800000 in
/-- A middle point: the product comes back as found, the column sums with the block's added, the activations with the
    block's rows written. -/
theorem mid_spec (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : ¬condLast i)
    (x0 : Vec F S10000x128 .f32) (x1 : Vec F S400x10000 .f32) (x2 : Vec F S128x128 .f32) (x3 : Vec F S1x128 .f32) (x4 : Vec F S128x128 .f32) (x5 : Vec F S1x128 .f32) (x6 : Vec F S1x128 .f32) (xs0 : Vec F S10000x128 .f32) (xs1 : Vec F S10000x128 .f32) (xs2 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs0
            ∗ owns (c : Thread nD τ) arg9 fullShare (actAfter i arg9 harg9 xs1 (k0_pay4 x1 xs0 x3))
            ∗ owns (c : Thread nD τ) arg10 fullShare (k0_pay3 x1 xs2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K := by
  have key : ∀ (r : Σ' (LS1 : List (View.Piece (Elt F) S10000x128 .f32)), { LS2 : List (View.Piece (Elt F) S1x10000 .f32) // MidTriple c i arg1 harg1 arg2 harg2 arg3 harg3 arg4 harg4 arg5 harg5 arg6 harg6 arg7 harg7 arg8 harg8 arg9 harg9 arg10 harg10 x0 x1 x2 x3 x4 x5 x6 xs0 xs1 xs2 LS1 LS2 }),
      r.1 = [⟨Rect.unit (s := S10000x128) (k0_off1 i) S400x128.size (k0_off1_inb i), k0_pay4 x1 xs0 x3⟩] → r.2.1 = [⟨Rect.unit (s := S1x10000) ![0, 0] S1x10000.size inb_S1x10000_S1x10000_0_0, k0_pay3 x1 xs2⟩] →
      MidTriple c i arg1 harg1 arg2 harg2 arg3 harg3 arg4 harg4 arg5 harg5 arg6 harg6 arg7 harg7 arg8 harg8 arg9 harg9 arg10 harg10 x0 x1 x2 x3 x4 x5 x6 xs0 xs1 xs2 [⟨Rect.unit (s := S10000x128) (k0_off1 i) S400x128.size (k0_off1_inb i), k0_pay4 x1 xs0 x3⟩] [⟨Rect.unit (s := S1x10000) ![0, 0] S1x10000.size inb_S1x10000_S1x10000_0_0, k0_pay3 x1 xs2⟩] := by
    rintro ⟨LS1, LS2, h⟩ e1 e2
    dsimp only at e1 e2
    subst e1 e2
    exact h
  obtain ⟨e1, e2⟩ := runMid_pieces c i arg1 harg1 arg2 harg2 arg3 harg3 arg4 harg4 arg5 harg5 arg6 harg6 arg7 harg7 arg8 harg8 arg9 harg9 arg10 harg10 hc0 hc1 x0 x1 x2 x3 x4 x5 x6 xs0 xs1 xs2
  have h := key (runMid c i arg1 harg1 arg2 harg2 arg3 harg3 arg4 harg4 arg5 harg5 arg6 harg6 arg7 harg7 arg8 harg8 arg9 harg9 arg10 harg10 hc0 hc1 x0 x1 x2 x3 x4 x5 x6 xs0 xs1 xs2) e1 e2 E K
  refine Idealize.SL.BI.BIBase.Entails.trans ?_ h
  iintro ⟨H0, H1, H2, H3, H4, H5, H6, HS0, HS1, HS2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, ⟨%f2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]
  · unfold owns; iexists _; isplitr; swap; · iexact HS1
    ipureintro; rfl
  unfold owns; iexists _; isplitr; swap; · iexact HS2
  ipureintro; exact read_newest_whole arg10.view f2 zero2 _ _ _

set_option maxHeartbeats 800000 in
/-- The last point: as a middle point, and the output buffer comes back at the contraction of the updated column sums
    against the activations as they stand after the block's rows are written. -/
theorem last_spec (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x10000 .f32) (harg10 : arg10.IsWhole) (hc0 : ¬condInit i) (hc1 : condLast i)
    (x0 : Vec F S10000x128 .f32) (x1 : Vec F S400x10000 .f32) (x2 : Vec F S128x128 .f32) (x3 : Vec F S1x128 .f32) (x4 : Vec F S128x128 .f32) (x5 : Vec F S1x128 .f32) (xs0 : Vec F S10000x128 .f32) (xs1 : Vec F S10000x128 .f32) (xs2 : Vec F S1x10000 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1 ∗ owns (c : Thread nD τ) arg10 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay5 (k0_pay3 x1 xs2) (actAfter i arg9 harg9 xs1 (k0_pay4 x1 xs0 x3)) x4 x5)
            ∗ owns (c : Thread nD τ) arg8 fullShare xs0
            ∗ owns (c : Thread nD τ) arg9 fullShare (actAfter i arg9 harg9 xs1 (k0_pay4 x1 xs0 x3))
            ∗ owns (c : Thread nD τ) arg10 fullShare (k0_pay3 x1 xs2)) -∗ K ⟨⟩))
      ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K := by
  have key : ∀ (r : Σ' (LO : List (View.Piece (Elt F) S1x128 .f32)) (LS1 : List (View.Piece (Elt F) S10000x128 .f32)), { LS2 : List (View.Piece (Elt F) S1x10000 .f32) // LastTriple c i arg1 harg1 arg2 harg2 arg3 harg3 arg4 harg4 arg5 harg5 arg6 harg6 arg7 harg7 arg8 harg8 arg9 harg9 arg10 harg10 x0 x1 x2 x3 x4 x5 xs0 xs1 xs2 LO LS1 LS2 }),
      r.1 = [⟨Rect.unit (s := S1x128) ![0, 0] S1x128.size inb_S1x128_S1x128_0_0, k0_pay5 (k0_pay3 x1 xs2) (arg9.view.read (Elt F) (arg9.view.writes (Elt F) (harg9.unread xs1) [⟨Rect.unit (s := S10000x128) (k0_off1 i) S400x128.size (k0_off1_inb i), k0_pay4 x1 xs0 x3⟩])) x4 x5⟩] → r.2.1 = [⟨Rect.unit (s := S10000x128) (k0_off1 i) S400x128.size (k0_off1_inb i), k0_pay4 x1 xs0 x3⟩] → r.2.2.1 = [⟨Rect.unit (s := S1x10000) ![0, 0] S1x10000.size inb_S1x10000_S1x10000_0_0, k0_pay3 x1 xs2⟩] →
      LastTriple c i arg1 harg1 arg2 harg2 arg3 harg3 arg4 harg4 arg5 harg5 arg6 harg6 arg7 harg7 arg8 harg8 arg9 harg9 arg10 harg10 x0 x1 x2 x3 x4 x5 xs0 xs1 xs2 [⟨Rect.unit (s := S1x128) ![0, 0] S1x128.size inb_S1x128_S1x128_0_0, k0_pay5 (k0_pay3 x1 xs2) (arg9.view.read (Elt F) (arg9.view.writes (Elt F) (harg9.unread xs1) [⟨Rect.unit (s := S10000x128) (k0_off1 i) S400x128.size (k0_off1_inb i), k0_pay4 x1 xs0 x3⟩])) x4 x5⟩] [⟨Rect.unit (s := S10000x128) (k0_off1 i) S400x128.size (k0_off1_inb i), k0_pay4 x1 xs0 x3⟩] [⟨Rect.unit (s := S1x10000) ![0, 0] S1x10000.size inb_S1x10000_S1x10000_0_0, k0_pay3 x1 xs2⟩] := by
    rintro ⟨LO, LS1, LS2, h⟩ e0 e1 e2
    dsimp only at e0 e1 e2
    subst e0 e1 e2
    exact h
  obtain ⟨e0, e1, e2⟩ := runLast_pieces c i arg1 harg1 arg2 harg2 arg3 harg3 arg4 harg4 arg5 harg5 arg6 harg6 arg7 harg7 arg8 harg8 arg9 harg9 arg10 harg10 hc0 hc1 x0 x1 x2 x3 x4 x5 xs0 xs1 xs2
  have h := key (runLast c i arg1 harg1 arg2 harg2 arg3 harg3 arg4 harg4 arg5 harg5 arg6 harg6 arg7 harg7 arg8 harg8 arg9 harg9 arg10 harg10 hc0 hc1 x0 x1 x2 x3 x4 x5 xs0 xs1 xs2) e0 e1 e2 E K
  refine Idealize.SL.BI.BIBase.Entails.trans ?_ h
  iintro ⟨H0, H1, H2, H3, H4, H5, H6, HS0, HS1, HS2, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, ⟨%f6, H6⟩, HS0, HS1, ⟨%f2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact read_newest_whole arg7.view f6 zero2 _ _ _
  isplitl [HS0]; · iexact HS0
  isplitl [HS1]
  · unfold owns; iexists _; isplitr; swap; · iexact HS1
    ipureintro; rfl
  unfold owns; iexists _; isplitr; swap; · iexact HS2
  ipureintro; exact read_newest_whole arg10.view f2 zero2 _ _ _

end Cert.KernelIdeal.Hand

end
-- ==== Proof.IdealBody.lean ====
/-
  The kernel's frame and value from the pipeline library's launch theorem: the region's invariant (after point n the product buffer holds x·W1,
  the activations are filled through point n, the column-sum buffer holds the running sums through point n), the proof
  data (every input buffer at its block; the output buffer, written back once, at the last point's contraction), the
  body obligation by cases on the point (first / middle / last), the launch, and what the output array holds at the end.
-/
import proofs.«165508_g90297392431549_cont_sun_m_1291_8_alg».proof.Proof.IdealSpecs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The column sums after a point that is not the first: the point's block added to what the point before left. -/
theorem colsum_pos (c : Dev nD) (n : ℕ) (hz : n ≠ 0) :
    colsum m c n = k0_pay3 (iblk m c 1 (pt n)) (colsum m c (n - 1)) := by
  cases n with
  | zero => exact absurd rfl hz
  | succ n => rfl

/-- THE INVARIANT before position `n`: before the first point the launch's (every scratch at anything); afterwards the
    product buffer at x·W1, the activations filled through point n-1, the column sums through point n-1. -/
def PhiS (c : Dev nD) : ℕ → sProp 𝕄
  | 0 => Pipeline.ΦA spec0 c
  | n + 1 => iprop(iprop(owns (c : Thread nD τ) scSupp fullShare (supp m c) ∗ (∃ d, ⌜ActUpTo m c n d⌝ ∗ owns (c : Thread nD τ) scAct fullShare d) ∗ owns (c : Thread nD τ) scCol fullShare (colsum m c n)) ∗ (∃ r, prngReg c r))

theorem PhiS_succ (c : Dev nD) (n : ℕ) : PhiS m c (n + 1) = iprop(iprop(owns (c : Thread nD τ) scSupp fullShare (supp m c) ∗ (∃ d, ⌜ActUpTo m c n d⌝ ∗ owns (c : Thread nD τ) scAct fullShare d) ∗ owns (c : Thread nD τ) scCol fullShare (colsum m c n)) ∗ (∃ r, prngReg c r)) := rfl

theorem PhiS_pos (c : Dev nD) (n : ℕ) (hz : n ≠ 0) : PhiS m c n = iprop(iprop(owns (c : Thread nD τ) scSupp fullShare (supp m c) ∗ (∃ d, ⌜ActUpTo m c (n - 1) d⌝ ∗ owns (c : Thread nD τ) scAct fullShare d) ∗ owns (c : Thread nD τ) scCol fullShare (colsum m c (n - 1))) ∗ (∃ r, prngReg c r)) := by
  cases n with
  | zero => exact absurd rfl hz
  | succ n => rfl

/-- The proof data: the arrays as the region finds them; every input buffer at its block; the output buffer at the
    last point's contraction; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal m c
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outVal m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]

set_option maxHeartbeats 4000000 in
/-- THE BODY AT ANY POINT. The inputs' buffers hold their blocks. At the first point the invariant hands over the
    scratch buffers at anything, and the run leaves the product, the first block's rows and the first column sums. At a
    later point it hands them over at what the point before left, and the run adds the point's rows and column sums;
    the rows below the point's were final already, so the activations are filled through the point. At the last point
    every row is then final, and the output buffer receives the contraction of the full column sums against the full
    activations. At the other points the output buffer is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from by dsimp only [dats]; simp only [Fin.coe_castSucc]]
  rw [leaves_0, leaves_1, leaves_2, leaves_3, leaves_4, leaves_5]
  have hN : t.val < 25 := lt25 t
  by_cases h0 : t.val = 0
  · -- the first point
    have hcI : condInit (grid0.coords t) := (condInit_iff t).mpr h0
    have hcL : ¬condLast (grid0.coords t) := fun h => by have := (condLast_iff t).mp h; omega
    rw [Dat.leavesExact_idle (dats m 0 c) 6 t (idle6 t hcL) (noFlush6 t hcL)]
    have e0 : PhiS m c t.val = Pipeline.ΦA spec0 c := by rw [h0]; rfl
    have ecs : colsum m c t.val = k0_pay3 (iblk m c 1 t) (k0_pay2 (F := F)) := by
      rw [h0]; show k0_pay3 (iblk m c 1 (pt 0)) _ = _; rw [← h0, pt_val]
    have esu : supp m c = k0_pay1 (iblk m c 0 t) (iblk m c 2 t) := by
      show k0_pay1 (iblk m c 0 (pt 0)) (iblk m c 2 (pt 0)) = _; rw [← h0, pt_val]
    rw [e0, PhiA_open, ecs]
    iintro ⟨⟨⟨HS0, ⟨%d1, HS1⟩, HS2⟩, Hg⟩, Ho, ⟨%e0', H0⟩, ⟨%e1', H1⟩, ⟨%e2', H2⟩, ⟨%e3', H3⟩, ⟨%e4', H4⟩, ⟨%e5', H5⟩, ⟨%d6, H6⟩⟩
    iapply (first_spec c (grid0.coords t) (ms0 t) (hs0 t) (ms1 t) (hs1 t) (ms2 t) (hs2 t) (ms3 t) (hs3 t) (ms4 t) (hs4 t) (ms5 t) (hs5 t) (ms6 t) (hs6 t) scSupp (Memref.isWhole_whole _) scAct (Memref.isWhole_whole _) scCol (Memref.isWhole_whole _) hcI hcL (iblk m c 0 t) (iblk m c 1 t) (iblk m c 2 t) (iblk m c 3 t) (iblk m c 4 t) (iblk m c 5 t) ((dats m 0 c).before 6 t d6) d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · rw [esu]; iexact HS0
        isplitl [HS1]
        · iexists _; isplitr; swap; · iexact HS1
          ipureintro
          have hs := act_step m c t scAct (Memref.isWhole_whole _) d1 (Or.inl h0)
          rw [esu] at hs
          exact hs
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 24
    · -- the last point
      have hcI : ¬condInit (grid0.coords t) := fun h => h0 ((condInit_iff t).mp h)
      have hcL : condLast (grid0.coords t) := (condLast_iff t).mpr h1
      rw [show (dats m 0 c).leavesExact 6 t = owns (c : Thread nD τ) (ms6 t) fullShare ((dats m 0 c).after 6 t) from by
        unfold Dat.leavesExact; rw [live6 t hcL], after_6]
      rw [PhiS_pos m c _ h0, colsum_pos m c t.val h0, pt_val]
      have eout : outVal m c = k0_pay5 (k0_pay3 (iblk m c 1 t) (colsum m c (t.val - 1))) (act m c) (iblk m c 4 t) (iblk m c 5 t) := by
        have e24 : colsum m c 24 = k0_pay3 (iblk m c 1 (pt 24)) (colsum m c 23) := rfl
        have e23 : t.val - 1 = 23 := by omega
        unfold outVal; rw [e24, e23, ← h1, pt_val]
      rw [eout]
      iintro ⟨⟨⟨HS0, ⟨%d1, %hd1, HS1⟩, HS2⟩, Hg⟩, Ho, ⟨%e0', H0⟩, ⟨%e1', H1⟩, ⟨%e2', H2⟩, ⟨%e3', H3⟩, ⟨%e4', H4⟩, ⟨%e5', H5⟩, ⟨%d6, H6⟩⟩
      have hs := act_step m c t scAct (Memref.isWhole_whole _) d1 (Or.inr hd1)
      have hfull : actAfter (grid0.coords t) scAct (Memref.isWhole_whole _) d1 (k0_pay4 (iblk m c 1 t) (supp m c) (iblk m c 3 t)) = act m c :=
        act_full m c _ (by rw [h1] at hs; exact hs)
      iapply (last_spec c (grid0.coords t) (ms0 t) (hs0 t) (ms1 t) (hs1 t) (ms2 t) (hs2 t) (ms3 t) (hs3 t) (ms4 t) (hs4 t) (ms5 t) (hs5 t) (ms6 t) (hs6 t) scSupp (Memref.isWhole_whole _) scAct (Memref.isWhole_whole _) scCol (Memref.isWhole_whole _) hcI hcL (iblk m c 0 t) (iblk m c 1 t) (iblk m c 2 t) (iblk m c 3 t) (iblk m c 4 t) (iblk m c 5 t) (supp m c) d1 (colsum m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      rw [hfull]
      iintro ⟨H0, H1, H2, H3, H4, H5, H6, HS0, HS1, HS2⟩
      isplitl [HS0 HS1 HS2 Hg]
      · isplitl [HS0 HS1 HS2]
        · isplitl [HS0]; · iexact HS0
          isplitl [HS1]
          · iexists _; isplitr; swap; · iexact HS1
            ipureintro
            intro y _; rfl
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hcI : ¬condInit (grid0.coords t) := fun h => h0 ((condInit_iff t).mp h)
      have hcL : ¬condLast (grid0.coords t) := fun h => h1 ((condLast_iff t).mp h)
      rw [Dat.leavesExact_idle (dats m 0 c) 6 t (idle6 t hcL) (noFlush6 t hcL)]
      rw [PhiS_pos m c _ h0, colsum_pos m c t.val h0, pt_val]
      iintro ⟨⟨⟨HS0, ⟨%d1, %hd1, HS1⟩, HS2⟩, Hg⟩, Ho, ⟨%e0', H0⟩, ⟨%e1', H1⟩, ⟨%e2', H2⟩, ⟨%e3', H3⟩, ⟨%e4', H4⟩, ⟨%e5', H5⟩, ⟨%d6, H6⟩⟩
      iapply (mid_spec c (grid0.coords t) (ms0 t) (hs0 t) (ms1 t) (hs1 t) (ms2 t) (hs2 t) (ms3 t) (hs3 t) (ms4 t) (hs4 t) (ms5 t) (hs5 t) (ms6 t) (hs6 t) scSupp (Memref.isWhole_whole _) scAct (Memref.isWhole_whole _) scCol (Memref.isWhole_whole _) hcI hcL (iblk m c 0 t) (iblk m c 1 t) (iblk m c 2 t) (iblk m c 3 t) (iblk m c 4 t) (iblk m c 5 t) ((dats m 0 c).before 6 t d6) (supp m c) d1 (colsum m c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]
          · iexists _; isplitr; swap; · iexact HS1
            ipureintro
            exact act_step m c t scAct (Memref.isWhole_whole _) d1 (Or.inr hd1)
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 :=
  Idealize.SL.BI.Entails.refl _

/-- After the last point the invariant gives the launch's back: the scratch buffers' contents are forgotten. -/
theorem hout (c : Dev nD) : (dats m 0 c).Φ (Fin.last cfg0.N) ⊢ Pipeline.ΦA spec0 c := by
  rw [show (dats m 0 c).Φ (Fin.last cfg0.N) = PhiS m c 25 from rfl, PhiS_succ, PhiA_open]
  iintro ⟨⟨HS0, ⟨%d, -, HS1⟩, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- THE RUN: every weakly fair execution of @main terminates, every array of the pipeline at what the library computes
    from the proof data and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.IdealBlocks.lean ====
/-
  Where the blocks sit in their arrays, and what the run leaves in the result.
  Five of the six input windows show the body the whole array at every grid point; the adjacency's window shows rows
  400·t … 400·t + 399 at point t. The output window is written back once, after the last point, and covers its whole
  [1, 128] array; the host line after the region reshapes that array to the [128] result.
-/
import proofs.«165508_g90297392431549_cont_sun_m_1291_8_alg».proof.Proof.IdealBody
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F] [Named F]

variable (m : (ℓ : Loc nD τ sig) → Buf (Elt F) ℓ) (ρ : Dev nD → PrngReg)

/-- The windows' block indices, decided over the grid: the adjacency's row-block index is the point's number, every
    other index is zero. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The node features' window is the whole array. -/
theorem iblk0_eq (c : Dev nD) (t : Fin cfg0.N) : iblk m c 0 t = V m c main_arg0 := by
  obtain ⟨e0, e1, -⟩ := idx_facts t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The adjacency's window at point `t` is rows 400·t … 400·t + 399. -/
theorem iblk1_apply (c : Dev nD) (t : Fin cfg0.N) (r : Fin 400) (k : Fin 10000) (i : Fin 10000) (hi : i.val = 400 * t.val + r.val) :
    iblk m c 1 t (ix2 r k) = V m c main_arg1 (ix2 i k) := by
  obtain ⟨-, -, e0, e1, -⟩ := idx_facts t
  show V m c main_arg1 (((cfg0.win 1).blk t).view.emb (ix2 r k)) = V m c main_arg1 (ix2 i k)
  refine congrArg _ (funext fun a => Fin.ext ?_)
  match a with
  | ⟨0, _⟩ => show win0_1.index t (0 : Fin 2) * 400 + 1 * r.val = i.val; omega
  | ⟨1, _⟩ => show win0_1.index t (1 : Fin 2) * 10000 + 1 * k.val = k.val; omega

/-- The first weights' window is the whole array. -/
theorem iblk2_eq (c : Dev nD) (t : Fin cfg0.N) : iblk m c 2 t = V m c main_arg2 := by
  obtain ⟨-, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias's window is the whole (reshaped) array. -/
theorem iblk3_eq (c : Dev nD) (t : Fin cfg0.N) : iblk m c 3 t = V m c main_call0_v0 := by
  obtain ⟨-, -, -, -, -, -, e0, e1, -⟩ := idx_facts t
  funext y
  show V m c main_call0_v0 (((cfg0.win 3).blk t).view.emb y) = V m c main_call0_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weights' window is the whole array. -/
theorem iblk4_eq (c : Dev nD) (t : Fin cfg0.N) : iblk m c 4 t = V m c main_arg4 := by
  obtain ⟨-, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias's window is the whole (reshaped) array. -/
theorem iblk5_eq (c : Dev nD) (t : Fin cfg0.N) : iblk m c 5 t = V m c main_call0_v1 := by
  obtain ⟨-, -, -, -, -, -, -, -, -, -, e0, e1, -⟩ := idx_facts t
  funext y
  show V m c main_call0_v1 (((cfg0.win 5).blk t).view.emb y) = V m c main_call0_v1 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What a flushing point writes back is the output block, whole. -/
theorem flushed6_eq (c : Dev nD) (t : Fin cfg0.N) :
    (dats m 0 c).flushed 6 t = ((cfg0.win 6).blk t).view.read (Elt F) (outVal m c) := by
  show (cfg0.win 6).cut (grid0.coords t) ((dats m 0 c).after 6 t) = _
  rw [after_6]
  obtain ⟨-, -, -, -, -, -, -, -, -, -, -, -, e0, e1⟩ := idx_facts t
  funext y
  show outVal m c y = outVal m c (((cfg0.win 6).blk t).view.emb y)
  refine congrArg _ (funext fun a => Fin.ext ?_)
  match a with
  | ⟨0, _⟩ => show (y 0).val = win0_6.index t (0 : Fin 2) * 1 + 1 * (y 0).val; omega
  | ⟨1, _⟩ => show (y 1).val = win0_6.index t (1 : Fin 2) * 128 + 1 * (y 1).val; omega

/-- Every entry of the output array is in the last point's block. -/
theorem cover6 (i : S1x128.Idx) : ∃ t : Fin cfg0.N, (cfg0.win 6).flush t = true ∧ i ∈ ((cfg0.win 6).blk t).view.set := by
  refine ⟨pt 24, (flush0_6 (pt 24)).mpr rfl, ?_⟩
  obtain ⟨-, -, -, -, -, -, -, -, -, -, -, -, e0, e1⟩ := idx_facts (pt 24)
  show i ∈ ((View.whole main_call0_v2).slice (win0_6.rect (pt 24))).set
  rw [View.set_slice_whole, Rect.mem_set_unit]
  intro a
  match a with
  | ⟨0, _⟩ => show win0_6.index (pt 24) (0 : Fin 2) * 1 ≤ (i 0).val ∧ (i 0).val < win0_6.index (pt 24) (0 : Fin 2) * 1 + 1; have hi : (i 0).val < 1 := (i 0).isLt; omega
  | ⟨1, _⟩ => show win0_6.index (pt 24) (1 : Fin 2) * 128 ≤ (i 1).val ∧ (i 1).val < win0_6.index (pt 24) (1 : Fin 2) * 128 + 128; have hi : (i 1).val < 128 := (i 1).isLt; omega

/-- THE OUTPUT ARRAY after the run is the last point's output block. -/
theorem final6 (c : Dev nD) : (dats m 0 c).arrAt 6 cfg0.N = outVal m c :=
  (dats m 0 c).arrAt_eq_of_cover 6 (outVal m c) (fun t _ => flushed6_eq m c t) (cover6)

/-- The host line after the region reshapes the output array into the result. -/
theorem tail_v0 (c : Dev nD) :
    Pipeline.afterTail₀ cfgs (dats m) 0 (V0 m) [hostOps1] c main_v0 = shapeCast S128 (outVal m c) shapeCasts_S1x128_S128 := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v2) = outVal m c :=
    (Pipeline.withArrays_arr spec0 launch0.win.arr_inj c _ _ 6).trans (final6 m c)
  exact congrArg (fun z => shapeCast S128 z shapeCasts_S1x128_S128) e

/-- THE RESULT: the run ends with the [128] result at the output block reshaped, and the arguments unchanged. -/
theorem run_result : θ_run defs (onTc (τ := τ) (main (F := F))) ⟨m, fun _ => 0, ρ⟩ (fun r => ∀ c : Dev nD,
      r.2.mem ((c.tc : Thread nD τ).loc main_v0) = shapeCast S128 (outVal m c) shapeCasts_S1x128_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v0 (Pipeline.mem_restRefs_of main_v0 (by decide) (by decide))).trans (tail_v0 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main m ρ)

end Cert.KernelIdeal.Hand

end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.IdealPayloads.lean ====
/-
  The body's five pure functions read at an entry, over the extended reals:
    the product x·W1 at (k, e) is  Σ_l x(k,l)·W1(l,e);
    the zero row is 0;
    the column sums after a block are the ones before plus  Σ_r a(r,j)  over the block's 400 rows (the product of the
      all-ones row with the block);
    the block's rectified rows at (r, e) are  max(Σ_k a(r,k)·s(k,e) + b1(e), 0);
    the output at d is  (Σ_e (Σ_j c(j)·h(j,e))·W2(e,d))·(1/10000) + b2(d),  the scale the named reciprocal 1/10000.
-/
import proofs.«165508_g90297392431549_cont_sun_m_1291_8_alg».proof.Proof.Gen.KernelIdeal.Skeleton
import proofs.«165508_g90297392431549_cont_sun_m_1291_8_alg».proof.Proof.LibPlainDot
import Idealize.ShloMosaic.Lib.ValueIdx
import Idealize.ShloMosaic.Lib.Pipeline.Value
import Idealize.ShloMosaic.Lib.IdealHost
import Idealize.ShloMosaic.PureOps.Ideal.Laws
import Idealize.ShloMosaic.PureOps.IdealRules

noncomputable section

namespace Cert.KernelIdeal.Payloads

open Idealize.ShloMosaic Idealize.ShloMosaic.ValueIdx Idealize.ShloMosaic.TcCoe Cert.KernelIdeal Cert.KernelIdeal.Gen Cert.PlainDot

/-- The named reciprocal denotes the rational 1/10000. -/
theorem inv_n : Named.named (F := Ideal) Cert.KernelIdeal.κ "inv_10000" (φ := .f32) 0x38D1B717#32 = ((1 / 10000 : ℝ) : EReal) :=
  IdealRules.named_const.ideal_named_scalar _ _ _ _ rfl

/-- The product x·W1 at an entry. -/
theorem pay1_apply (x0 : Vec Ideal S10000x128 .f32) (x2 : Vec Ideal S128x128 .f32) (k : Fin 10000) (e : Fin 128) :
    k0_pay1 (F := Ideal) x0 x2 (ix2 k e) = ∑ l : Fin 128, x0 (ix2 k l) * x2 (ix2 l e) := by
  show shapeCast S10000x128 (matmul (F := Ideal) dot_S10000x128_S128x128_S10000x128_1_0_0_1_n_n none x0 x2 (constant (F := Ideal) S10000x128 .f32 0x00000000#32)) shapeCasts_S10000x128_S10000x128 (ix2 k e) = _
  rw [shapeCast_self]
  exact matmul_zero_plain dot_S10000x128_S128x128_S10000x128_1_0_0_1_n_n ⟨rfl, rfl, rfl, rfl, rfl, rfl⟩ none x0 x2 (ix2 k e)

/-- The zero row. -/
theorem pay2_apply (j : Fin 10000) : k0_pay2 (F := Ideal) (ix2 (0 : Fin 1) j) = 0 := by
  show shapeCast S1x10000 (broadcast S1x10000 (Scalar.ofBits (F := Ideal) .f32 0x00000000#32)) shapeCasts_S1x10000_S1x10000 (ix2 (0 : Fin 1) j) = 0
  rw [shapeCast_self]
  exact Ideal.ofBits_zero_f32

/-- The column sums after one more block. -/
theorem pay3_apply (x1 : Vec Ideal S400x10000 .f32) (v5 : Vec Ideal S1x10000 .f32) (j : Fin 10000) :
    k0_pay3 (F := Ideal) x1 v5 (ix2 (0 : Fin 1) j) = v5 (ix2 (0 : Fin 1) j) + ∑ r : Fin 400, x1 (ix2 r j) := by
  show shapeCast S1x10000 (addf (F := Ideal) v5 (matmul (F := Ideal) dot_S1x400_S400x10000_S1x10000_1_0_0_1_n_n none (broadcast S1x400 (Scalar.ofBits (F := Ideal) .f32 0x3F800000#32)) x1 (constant (F := Ideal) S1x10000 .f32 0x00000000#32))) shapeCasts_S1x10000_S1x10000 (ix2 (0 : Fin 1) j) = _
  rw [shapeCast_self, addf_apply]
  refine congrArg (v5 (ix2 (0 : Fin 1) j) + ·) ?_
  refine (matmul_zero_plain dot_S1x400_S400x10000_S1x10000_1_0_0_1_n_n ⟨rfl, rfl, rfl, rfl, rfl, rfl⟩ none _ x1 (ix2 (0 : Fin 1) j)).trans ?_
  refine Finset.sum_congr rfl fun r _ => ?_
  show Ideal.ofBits .f32 0x3F800000#32 * x1 (ix2 r j) = x1 (ix2 r j)
  rw [Ideal.ofBits_one_f32, one_mul]

/-- The block's rectified rows at an entry. -/
theorem pay4_apply (x1 : Vec Ideal S400x10000 .f32) (sp : Vec Ideal S10000x128 .f32) (x3 : Vec Ideal S1x128 .f32) (r : Fin 400) (e : Fin 128) :
    k0_pay4 (F := Ideal) x1 sp x3 (ix2 r e) = max (∑ k : Fin 10000, x1 (ix2 r k) * sp (ix2 k e) + x3 (ix2 (0 : Fin 1) e)) 0 := by
  show shapeCast S400x128 (maximumf (F := Ideal) (addf (F := Ideal) (matmul (F := Ideal) dot_S400x10000_S10000x128_S400x128_1_0_0_1_n_n none x1 sp (constant (F := Ideal) S400x128 .f32 0x00000000#32)) (broadcastTo S400x128 (shapeCast S1x128 x3 shapeCasts_S1x128_S1x128) broadcasts_S1x128_S400x128)) (broadcast S400x128 (Scalar.ofBits (F := Ideal) .f32 0x00000000#32))) shapeCasts_S400x128_S400x128 (ix2 r e) = _
  rw [shapeCast_self, maximumf_apply, addf_apply, shapeCast_self]
  refine congrArg₂ max (congrArg₂ (· + ·) ?_ ?_) ?_
  · exact matmul_zero_plain dot_S400x10000_S10000x128_S400x128_1_0_0_1_n_n ⟨rfl, rfl, rfl, rfl, rfl, rfl⟩ none x1 sp (ix2 r e)
  · exact broadcastTo_apply x3 broadcasts_S1x128_S400x128 (ix2 r e) (ix2 (0 : Fin 1) e) (fun a => match a with
      | ⟨0, _⟩ => by show (0 : ℕ) = if (1 : ℕ) = 1 then 0 else _; rw [if_pos rfl]
      | ⟨1, _⟩ => by show e.val = if (128 : ℕ) = 1 then 0 else e.val; rw [if_neg (by decide)])
  · exact Ideal.ofBits_zero_f32

/-- The output at an entry. -/
theorem pay5_apply (cs : Vec Ideal S1x10000 .f32) (H : Vec Ideal S10000x128 .f32) (x4 : Vec Ideal S128x128 .f32) (x5 : Vec Ideal S1x128 .f32) (d : Fin 128) :
    k0_pay5 (F := Ideal) cs H x4 x5 (ix2 (0 : Fin 1) d)
      = (∑ e : Fin 128, (∑ j : Fin 10000, cs (ix2 (0 : Fin 1) j) * H (ix2 j e)) * x4 (ix2 e d)) * ((1 / 10000 : ℝ) : EReal) + x5 (ix2 (0 : Fin 1) d) := by
  show addf (F := Ideal) (mulf (F := Ideal) (matmul (F := Ideal) dot_S1x128_S128x128_S1x128_1_0_0_1_n_n none (matmul (F := Ideal) dot_S1x10000_S10000x128_S1x128_1_0_0_1_n_n none cs H (constant (F := Ideal) S1x128 .f32 0x00000000#32)) x4 (constant (F := Ideal) S1x128 .f32 0x00000000#32)) (broadcast S1x128 (Named.named (F := Ideal) κ "inv_10000" (φ := .f32) 0x38D1B717#32))) (shapeCast S1x128 x5 shapeCasts_S1x128_S1x128) (ix2 (0 : Fin 1) d) = _
  rw [addf_apply, mulf_apply, shapeCast_self]
  refine congrArg₂ (· + ·) (congrArg₂ (· * ·) ?_ ?_) rfl
  · refine (matmul_zero_plain dot_S1x128_S128x128_S1x128_1_0_0_1_n_n ⟨rfl, rfl, rfl, rfl, rfl, rfl⟩ none _ x4 (ix2 (0 : Fin 1) d)).trans ?_
    refine Finset.sum_congr rfl fun e _ => congrArg (· * x4 (ix2 e d)) ?_
    exact matmul_zero_plain dot_S1x10000_S10000x128_S1x128_1_0_0_1_n_n ⟨rfl, rfl, rfl, rfl, rfl, rfl⟩ none cs H (ix2 (0 : Fin 1) e)
  · exact inv_n

end Cert.KernelIdeal.Payloads

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.KernelValue.lean ====
/-
  The kernel's result over the reals. With every argument entry a real number, every intermediate of the kernel is the
  extended real of a real number computed by the same sums:
    s(k,e) = Σ_l x(k,l)·W1(l,e);   h(j,e) = max(Σ_k a(j,k)·s(k,e) + b1(e), 0);   c(j) = Σ_i a(i,j), the 25 blocks of 400
    rows added one after another from zero;   result(d) = (Σ_e (Σ_j c(j)·h(j,e))·W2(e,d))·(1/10000) + b2(d).
-/
import proofs.«165508_g90297392431549_cont_sun_m_1291_8_alg».proof.Proof.IdealBlocks
import proofs.«165508_g90297392431549_cont_sun_m_1291_8_alg».proof.Proof.IdealPayloads
import proofs.«165508_g90297392431549_cont_sun_m_1291_8_alg».proof.Proof.LibBlockedSum

set_option maxRecDepth 16384

noncomputable section

namespace Cert.KernelIdeal.RealValue

open Idealize.ShloMosaic Idealize.ShloMosaic.ValueIdx Idealize.ShloMosaic.TcCoe Idealize.SL.Sem
open Cert.KernelIdeal Cert.KernelIdeal.Gen Cert.KernelIdeal.Hand Cert.KernelIdeal.Payloads

/-- A finite sum of real numbers, read in the extended reals, is the sum of their readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The real-valued kernel -/

section Real

variable (x : Fin 10000 → Fin 128 → ℝ) (a : Fin 10000 → Fin 10000 → ℝ) (w1 : Fin 128 → Fin 128 → ℝ) (b1 : Fin 128 → ℝ)
  (w2 : Fin 128 → Fin 128 → ℝ) (b2 : Fin 128 → ℝ)

/-- The product x·W1. -/
def sR (k : Fin 10000) (e : Fin 128) : ℝ := ∑ l : Fin 128, x k l * w1 l e
/-- The rectified first layer. -/
def hR (j : Fin 10000) (e : Fin 128) : ℝ := max (∑ k : Fin 10000, a j k * sR x w1 k e + b1 e) 0
/-- The column sums of the adjacency. -/
def cR (j : Fin 10000) : ℝ := ∑ i : Fin 10000, a i j
/-- The kernel's result. -/
def kerR (d : Fin 128) : ℝ := (∑ e : Fin 128, (∑ j : Fin 10000, cR a j * hR x a w1 b1 j e) * w2 e d) * (1 / 10000) + b2 d

end Real

/-! ## The kernel's intermediates are the real ones -/

section Lift

variable (m : (ℓ : Loc nD τ sig) → Buf (Elt Ideal) ℓ) (c : Dev nD)
  (x : Fin 10000 → Fin 128 → ℝ) (a : Fin 10000 → Fin 10000 → ℝ) (w1 : Fin 128 → Fin 128 → ℝ) (b1 : Fin 128 → ℝ)
  (w2 : Fin 128 → Fin 128 → ℝ) (b2 : Fin 128 → ℝ)
  (hx : ∀ k l, V m c main_arg0 (ix2 k l) = (x k l : EReal)) (ha : ∀ i j, V m c main_arg1 (ix2 i j) = (a i j : EReal))
  (hw1 : ∀ l e, V m c main_arg2 (ix2 l e) = (w1 l e : EReal)) (hb1 : ∀ e, V m c main_call0_v0 (ix2 (0 : Fin 1) e) = (b1 e : EReal))
  (hw2 : ∀ e d, V m c main_arg4 (ix2 e d) = (w2 e d : EReal)) (hb2 : ∀ d, V m c main_call0_v1 (ix2 (0 : Fin 1) d) = (b2 d : EReal))

include hx hw1 in
/-- The product buffer holds the real product. -/
theorem supp_real (k : Fin 10000) (e : Fin 128) : supp m c (ix2 k e) = (sR x w1 k e : EReal) := by
  unfold supp sR
  rw [pay1_apply, iblk0_eq, iblk2_eq, coe_sum]
  exact Finset.sum_congr rfl fun l _ => by rw [hx, hw1, EReal.coe_mul]

include hx ha hw1 hb1 in
/-- The activations hold the real rectified layer. -/
theorem act_real (j : Fin 10000) (e : Fin 128) : act m c (ix2 j e) = (hR x a w1 b1 j e : EReal) := by
  have hj : j.val < 10000 := j.isLt
  have hr : rowIn (ix2 j e) = ix2 (⟨j.val % 400, Nat.mod_lt _ (by omega)⟩ : Fin 400) e :=
    funext fun q => match q with | ⟨0, _⟩ => rfl | ⟨1, _⟩ => rfl
  show actRows m c (j.val / 400) (rowIn (ix2 j e)) = _
  unfold actRows hR
  rw [hr, pay4_apply, iblk3_eq, hb1, EReal.coe_strictMono.monotone.map_max, EReal.coe_add, coe_sum, EReal.coe_zero]
  refine congrArg (max · (0 : EReal)) (congrArg (· + (b1 e : EReal)) (Finset.sum_congr rfl fun k _ => ?_))
  rw [iblk1_apply m c (pt (j.val / 400)) _ k j (by
      show j.val = 400 * ((j.val / 400) % 25) + j.val % 400
      omega), ha, supp_real m c x w1 hx hw1, EReal.coe_mul]

/-- The rows of the adjacency block `s` (blocks counted modulo 25). -/
def rowOf (s : ℕ) (r : Fin 400) : Fin 10000 := ⟨(400 * s + r.val) % 10000, Nat.mod_lt _ (by omega)⟩

include ha in
/-- The column sums after point `n` are the real sums of the first n+1 blocks of rows. -/
theorem colsum_real (j : Fin 10000) : ∀ n, n < 25 →
    colsum m c n (ix2 (0 : Fin 1) j) = ((∑ s ∈ Finset.range (n + 1), ∑ r : Fin 400, a (rowOf s r) j : ℝ) : EReal)
  | 0, _ => by
    show k0_pay3 (iblk m c 1 (pt 0)) (k0_pay2 (F := Ideal)) (ix2 (0 : Fin 1) j) = _
    rw [pay3_apply, pay2_apply, zero_add, Finset.sum_range_one, coe_sum]
    refine Finset.sum_congr rfl fun r _ => ?_
    rw [iblk1_apply m c (pt 0) r j (rowOf 0 r) (by show (400 * 0 + r.val) % 10000 = 400 * (0 % 25) + r.val; have := r.isLt; omega), ha]
  | n + 1, hn => by
    show k0_pay3 (iblk m c 1 (pt (n + 1))) (colsum m c n) (ix2 (0 : Fin 1) j) = _
    rw [pay3_apply, colsum_real j n (by omega), Finset.sum_range_succ _ (n + 1), EReal.coe_add, coe_sum (Finset.univ)]
    refine congrArg _ (Finset.sum_congr rfl fun r _ => ?_)
    rw [iblk1_apply m c (pt (n + 1)) r j (rowOf (n + 1) r) (by show (400 * (n + 1) + r.val) % 10000 = 400 * ((n + 1) % 25) + r.val; have := r.isLt; omega), ha]

include ha in
/-- After the last point the column sums are the real column sums. -/
theorem colsum_full (j : Fin 10000) : colsum m c 24 (ix2 (0 : Fin 1) j) = (cR a j : EReal) := by
  rw [colsum_real m c a ha j 24 (by omega)]
  refine congrArg _ ?_
  unfold cR
  exact BlockedSum.sum_range_blocks 25 400 (fun i : Fin (25 * 400) => a ⟨i.val, i.isLt⟩ j) (fun s r => a (rowOf s r) j)
    (fun s r => congrArg (a · j) (Fin.ext (by
      show (400 * s.val + r.val) % 10000 = s.val * 400 + r.val
      have := s.isLt; have := r.isLt; omega)))

include hx ha hw1 hb1 hw2 hb2 in
/-- THE KERNEL'S RESULT is the real one. -/
theorem outVal_real (d : Fin 128) : outVal m c (ix2 (0 : Fin 1) d) = (kerR x a w1 b1 w2 b2 d : EReal) := by
  unfold outVal kerR
  rw [pay5_apply, iblk4_eq, iblk5_eq, hb2, EReal.coe_add, EReal.coe_mul, coe_sum]
  refine congrArg (· + (b2 d : EReal)) (congrArg (· * ((1 / 10000 : ℝ) : EReal)) (Finset.sum_congr rfl fun e _ => ?_))
  rw [EReal.coe_mul, hw2, coe_sum]
  refine congrArg (· * (w2 e d : EReal)) (Finset.sum_congr rfl fun j _ => ?_)
  rw [colsum_full m c a ha, act_real m c x a w1 b1 hx ha hw1 hb1, EReal.coe_mul]

end Lift

end Cert.KernelIdeal.RealValue

end
-- ==== Proof.RefValue.lean ====
/-
  The reference over the reals: two graph-convolution layers over the dense adjacency and the mean over the nodes.
  With every argument entry a real number, each stage of the reference is the extended real of a real number:
    x·W1;  adj·(x·W1) + b1, rectified;  that times W2;  adj times that, plus b2;  the sum over the 10000 nodes, from zero;
    the quotient by the real number 10000.
-/
import proofs.«165508_g90297392431549_cont_sun_m_1291_8_alg».proof.Proof.Gen.ReferenceIdeal.Read
import proofs.«165508_g90297392431549_cont_sun_m_1291_8_alg».proof.Proof.KernelValue
import Idealize.ShloMosaic.Lib.IdealHost

noncomputable section

namespace Cert.ReferenceIdeal.RefValue

open Idealize.ShloMosaic Idealize.ShloMosaic.ValueIdx Idealize.ShloMosaic.TcCoe
open Cert.ReferenceIdeal Cert.ReferenceIdeal.Gen Cert.ReferenceIdeal.Read
open Cert.KernelIdeal.RealValue (sR hR cR kerR coe_sum)

/-- The binary32 pattern 0x461C4000 denotes ten thousand. -/
theorem tenk_f32 : Ideal.ofBits .f32 0x461C4000#32 = ((10000 : ℝ) : EReal) := by
  simp [Ideal.ofBits, Ideal.ieee, -EReal.coe_mul]; norm_num

section Real
variable (x : Fin 10000 → Fin 128 → ℝ) (a : Fin 10000 → Fin 10000 → ℝ) (w1 : Fin 128 → Fin 128 → ℝ) (b1 : Fin 128 → ℝ)
  (w2 : Fin 128 → Fin 128 → ℝ) (b2 : Fin 128 → ℝ)
/-- The second layer's row i at column d, before the mean. -/
def rowR (i : Fin 10000) (d : Fin 128) : ℝ := (∑ j : Fin 10000, a i j * ∑ e : Fin 128, hR x a w1 b1 j e * w2 e d) + b2 d
/-- The reference's result: the mean over the nodes. -/
def refR (d : Fin 128) : ℝ := (∑ i : Fin 10000, rowR x a w1 b1 w2 b2 i d) / 10000
end Real

section Lift

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x : Fin 10000 → Fin 128 → ℝ) (a : Fin 10000 → Fin 10000 → ℝ) (w1 : Fin 128 → Fin 128 → ℝ) (b1 : Fin 128 → ℝ)
  (w2 : Fin 128 → Fin 128 → ℝ) (b2 : Fin 128 → ℝ)
  (hx : ∀ k l, x0 (ix2 k l) = (x k l : EReal)) (ha : ∀ i j, x1 (ix2 i j) = (a i j : EReal))
  (hw1 : ∀ l e, x2 (ix2 l e) = (w1 l e : EReal)) (hb1 : ∀ e, x3 (ix1 e) = (b1 e : EReal))
  (hw2 : ∀ e d, x4 (ix2 e d) = (w2 e d : EReal)) (hb2 : ∀ d, x5 (ix1 d) = (b2 d : EReal))

include hx hw1 in
theorem v0_real (k : Fin 10000) (e : Fin 128) : val_main_v0 (F := Ideal) x0 x2 (ix2 k e) = (sR x w1 k e : EReal) := by
  rw [val_main_v0_apply]; unfold sR; rw [coe_sum]
  refine Finset.sum_congr rfl fun l _ => ?_
  have el : lidx_main_v0 (ix2 k e) l = ix2 k l := funext fun q => match q with | ⟨0, _⟩ => rfl | ⟨1, _⟩ => rfl
  have er : ridx_main_v0 (ix2 k e) l = ix2 l e := funext fun q => match q with | ⟨0, _⟩ => rfl | ⟨1, _⟩ => rfl
  rw [el, er, hx, hw1, EReal.coe_mul]

include hx ha hw1 hb1 in
theorem v5_real (j : Fin 10000) (e : Fin 128) : val_main_v5 (F := Ideal) x0 x1 x2 x3 (ix2 j e) = (hR x a w1 b1 j e : EReal) := by
  rw [val_main_v5_apply, val_main_v4_apply, val_main_v1_apply, val_main_v3_apply, val_main_v2_apply, val_main_call0_v0_apply, val_main_call0_cst_apply]
  unfold hR
  rw [EReal.coe_strictMono.monotone.map_max, EReal.coe_add, coe_sum, EReal.coe_zero]
  show max (_ + _) (Ideal.ofBits .f32 0x00000000#32) = _
  rw [Ideal.ofBits_zero_f32]
  refine congrArg (max · (0 : EReal)) (congrArg₂ (· + ·) (Finset.sum_congr rfl fun k _ => ?_) ?_)
  · have el : lidx_main_v1 (ix2 j e) k = ix2 j k := funext fun q => match q with | ⟨0, _⟩ => rfl | ⟨1, _⟩ => rfl
    have er : ridx_main_v1 (ix2 j e) k = ix2 k e := funext fun q => match q with | ⟨0, _⟩ => rfl | ⟨1, _⟩ => rfl
    rw [el, er, ha, v0_real x0 x2 x w1 hx hw1, EReal.coe_mul]
  · have ei : idx_main_v2 (idx_main_v3 (ix2 j e)) = ix1 e := funext fun q => match q with | ⟨0, _⟩ => rfl
    rw [ei, hb1]

include hx ha hw1 hb1 hw2 in
theorem v6_real (j : Fin 10000) (d : Fin 128) :
    val_main_v6 (F := Ideal) x0 x1 x2 x3 x4 (ix2 j d) = ((∑ e : Fin 128, hR x a w1 b1 j e * w2 e d : ℝ) : EReal) := by
  rw [val_main_v6_apply, coe_sum]
  refine Finset.sum_congr rfl fun e _ => ?_
  have el : lidx_main_v6 (ix2 j d) e = ix2 j e := funext fun q => match q with | ⟨0, _⟩ => rfl | ⟨1, _⟩ => rfl
  have er : ridx_main_v6 (ix2 j d) e = ix2 e d := funext fun q => match q with | ⟨0, _⟩ => rfl | ⟨1, _⟩ => rfl
  rw [el, er, v5_real x0 x1 x2 x3 x a w1 b1 hx ha hw1 hb1, hw2, EReal.coe_mul]

include hx ha hw1 hb1 hw2 hb2 in
theorem v10_real (i : Fin 10000) (d : Fin 128) :
    val_main_v10 (F := Ideal) x0 x1 x2 x3 x4 x5 (ix2 i d) = (rowR x a w1 b1 w2 b2 i d : EReal) := by
  rw [val_main_v10_apply, val_main_v7_apply, val_main_v9_apply, val_main_v8_apply]
  unfold rowR
  rw [EReal.coe_add, coe_sum]
  show _ + _ = _
  refine congrArg₂ (· + ·) (Finset.sum_congr rfl fun j _ => ?_) ?_
  · have el : lidx_main_v7 (ix2 i d) j = ix2 i j := funext fun q => match q with | ⟨0, _⟩ => rfl | ⟨1, _⟩ => rfl
    have er : ridx_main_v7 (ix2 i d) j = ix2 j d := funext fun q => match q with | ⟨0, _⟩ => rfl | ⟨1, _⟩ => rfl
    rw [el, er, ha, v6_real x0 x1 x2 x3 x4 x a w1 b1 w2 hx ha hw1 hb1 hw2, EReal.coe_mul]
  · have ei : idx_main_v8 (idx_main_v9 (ix2 i d)) = ix1 d := funext fun q => match q with | ⟨0, _⟩ => rfl
    rw [ei, hb2]

include hx ha hw1 hb1 hw2 hb2 in
/-- THE REFERENCE'S RESULT is the real mean. -/
theorem v13_real (d : Fin 128) :
    val_main_v13 (F := Ideal) x0 x1 x2 x3 x4 x5 (ix1 d) = (refR x a w1 b1 w2 b2 d : EReal) := by
  rw [val_main_v13_apply, val_main_v11_apply, val_main_v12_apply, val_main_cst_0_apply, val_main_cst_apply]
  show Ideal.div (Ideal.ofBits .f32 0x00000000#32 + _) (Ideal.ofBits .f32 0x461C4000#32) = _
  rw [Ideal.ofBits_zero_f32, zero_add, tenk_f32, Ideal.div_coe (by norm_num : (10000 : ℝ) ≠ 0)]
  unfold refR
  rw [div_eq_mul_one_div (∑ i : Fin 10000, rowR x a w1 b1 w2 b2 i d) (10000 : ℝ), EReal.coe_mul, coe_sum]
  refine congrArg (· * ((1 / 10000 : ℝ) : EReal)) (Finset.sum_congr rfl fun i _ => ?_)
  have ei : idx_main_v11 (ix1 d) i = ix2 i d := funext fun q => match q with | ⟨0, _⟩ => rfl | ⟨1, _⟩ => rfl
  rw [ei, v10_real x0 x1 x2 x3 x4 x5 x a w1 b1 w2 b2 hx ha hw1 hb1 hw2 hb2]

end Lift

end Cert.ReferenceIdeal.RefValue

end
-- ==== Proof.Finite.lean ====
/-
  The precondition read entry by entry: an array of extended reals all of whose entries have absolute value below
  +infinity holds real numbers. The printed predicate is the conjunction, over the six arguments, of "every entry's
  absolute value is less than the pattern 0x7F800000", and that pattern is +infinity.
-/
import proofs.«165508_g90297392431549_cont_sun_m_1291_8_alg».proof.Pre_finite_inputs
import proofs.«165508_g90297392431549_cont_sun_m_1291_8_alg».proof.Proof.Gen.Pre_finite_inputs
import Idealize.ShloMosaic.Lib.ReduceAll
import Idealize.ShloMosaic.Lib.ValueIdx
import Idealize.ShloMosaic.Lib.Affine
import Idealize.ShloMosaic.Lib.Pipeline.Value
import Idealize.ShloMosaic.PureOps.Ideal

noncomputable section

namespace Cert.Finite

open Idealize.ShloMosaic Cert.Pre_finite_inputs

instance : Subsingleton S_.Idx := ⟨fun a b => funext fun d => d.elim0⟩

/-- The binary32 pattern 0x7F800000 denotes +infinity. -/
theorem inf_f32 : Ideal.ofBits .f32 0x7F800000#32 = ⊤ := by
  simp [Ideal.ofBits, Ideal.ieee]

/-- An extended real whose absolute value is below +infinity is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One conjunct of the predicate, at an entry. -/
theorem entry_real {s : Shape} (a : FVec Ideal s .f32) (bc : _) (i : s.Idx)
    (e : cmpf .olt (Host.absf a) (broadcastInDim s ![] bc (constant (F := Ideal) S_ .f32 0x7F800000#32)) i = 1#1) :
    ∃ r : ℝ, a i = (r : EReal) := by
  have hb : broadcastInDim s ![] bc (constant (F := Ideal) S_ .f32 0x7F800000#32) i = Ideal.ofBits .f32 0x7F800000#32 :=
    (broadcastInDim_apply _ bc _ i (fun a => a.elim0) (fun a => a.elim0)).trans rfl
  rw [ValueIdx.cmpf_apply, hb, inf_f32] at e
  exact real_of_abs_lt_top (a i) e

/-- THE PRECONDITION, DECODED: every entry of every argument is a real number. -/
theorem real_of_pre [Cert.Pre_finite_inputs.Facts] (a0 : FVec Ideal S10000x128 .f32) (a1 : FVec Ideal S10000x10000 .f32) (a2 : FVec Ideal S128x128 .f32)
    (a3 : FVec Ideal S128 .f32) (a4 : FVec Ideal S128x128 .f32) (a5 : FVec Ideal S128 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => entry_real a0 _ i (Host.reduce_andi_all _ _ _ _ _ h0 i),
    fun i => entry_real a1 _ i (Host.reduce_andi_all _ _ _ _ _ h1 i),
    fun i => entry_real a2 _ i (Host.reduce_andi_all _ _ _ _ _ h2 i),
    fun i => entry_real a3 _ i (Host.reduce_andi_all _ _ _ _ _ h3 i),
    fun i => entry_real a4 _ i (Host.reduce_andi_all _ _ _ _ _ h4 i),
    fun i => entry_real a5 _ i (Host.reduce_andi_all _ _ _ _ _ h5 i)⟩

end Cert.Finite

end
-- ==== Proof.Algebra.lean ====
/-
  The real-number identity behind the kernel.

  The reference averages, over the n nodes i, the second layer's rows  Σ_j a(i,j)·g(j) + b  with  g(j) = Σ_e h(j,e)·w(e).
  Summing over i first turns the adjacency into its column sums  c(j) = Σ_i a(i,j):  the total is  Σ_j c(j)·g(j) + n·b,
  and  Σ_j c(j)·g(j)  is the kernel's  Σ_e (Σ_j c(j)·h(j,e))·w(e)  with the two finite sums exchanged. Dividing by n is
  multiplying by 1/n. Everything here is over the reals, where sums distribute over products.
-/
import Mathlib

namespace Cert.GcnAlgebra

open Finset

/-- Contracting against `h` and then against `w` is contracting against `h·w`: the two finite sums exchange. -/
theorem contract_assoc {ι ε : Type*} [Fintype ι] [Fintype ε] (c : ι → ℝ) (h : ι → ε → ℝ) (w : ε → ℝ) :
    ∑ e, (∑ j, c j * h j e) * w e = ∑ j, c j * ∑ e, h j e * w e := by
  calc ∑ e, (∑ j, c j * h j e) * w e = ∑ e, ∑ j, c j * h j e * w e :=
        Finset.sum_congr rfl fun e _ => Finset.sum_mul _ _ _
    _ = ∑ j, ∑ e, c j * h j e * w e := Finset.sum_comm
    _ = ∑ j, c j * ∑ e, h j e * w e := Finset.sum_congr rfl fun j _ => by
        rw [Finset.mul_sum]; exact Finset.sum_congr rfl fun e _ => mul_assoc _ _ _

/-- Summing  Σ_j a(i,j)·g(j) + b  over the rows i gives the column sums of a against g, plus (number of rows)·b. -/
theorem sum_rows_affine {ι κ : Type*} [Fintype ι] [Fintype κ] (a : ι → κ → ℝ) (g : κ → ℝ) (b : ℝ) :
    ∑ i, (∑ j, a i j * g j + b) = ∑ j, (∑ i, a i j) * g j + (Fintype.card ι : ℝ) * b := by
  rw [Finset.sum_add_distrib, Finset.sum_comm]
  simp only [Finset.sum_mul, Finset.sum_const, Finset.card_univ, nsmul_eq_mul]

/-- THE IDENTITY: the kernel's column-sum contraction scaled by 1/n plus the bias is the reference's mean over rows. -/
theorem mean_of_layers {ι ε : Type*} [Fintype ι] [Fintype ε] (a : ι → ι → ℝ) (h : ι → ε → ℝ) (w : ε → ℝ) (b n : ℝ)
    (hn : n = (Fintype.card ι : ℝ)) (hn0 : n ≠ 0) :
    (∑ e, (∑ j, (∑ i, a i j) * h j e) * w e) * (1 / n) + b
      = (∑ i, ((∑ j, a i j * ∑ e, h j e * w e) + b)) / n := by
  rw [contract_assoc, sum_rows_affine, ← hn, add_div, mul_div_cancel_left₀ _ hn0, mul_one_div]

end Cert.GcnAlgebra
-- ==== Proof.Bridge.lean ====
/-
  The two results are one function. Under the precondition every argument entry is a real number; the kernel's result
  is then the real number  (Σ_e (Σ_j c(j)·h(j,e))·W2(e,d))·(1/10000) + b2(d)  and the reference's the real mean
  (Σ_i (Σ_j a(i,j)·Σ_e h(j,e)·W2(e,d) + b2(d))) / 10000;  the two agree because summing over the rows first turns the
  adjacency into its column sums (the identity of the module Algebra). The biases reach the kernel as [1, 128] reshapes
  of the [128] arguments, and the kernel's [1, 128] output reaches the result as a [128] reshape: the same entries.
-/
import proofs.«165508_g90297392431549_cont_sun_m_1291_8_alg».proof.Proof.KernelValue
import proofs.«165508_g90297392431549_cont_sun_m_1291_8_alg».proof.Proof.RefValue
import proofs.«165508_g90297392431549_cont_sun_m_1291_8_alg».proof.Proof.Finite
import proofs.«165508_g90297392431549_cont_sun_m_1291_8_alg».proof.Proof.Algebra
import proofs.«165508_g90297392431549_cont_sun_m_1291_8_alg».proof.Defs

set_option maxRecDepth 16384

noncomputable section

namespace Cert.Bridge

open Idealize.ShloMosaic Idealize.ShloMosaic.ValueIdx Idealize.ShloMosaic.TcCoe Idealize.SL.Sem
open Cert.KernelIdeal Cert.KernelIdeal.Gen Cert.KernelIdeal.Hand
open Cert.KernelIdeal.RealValue (sR hR cR kerR outVal_real)
open Cert.ReferenceIdeal.RefValue (refR rowR v13_real)

variable (m : (ℓ : Loc nD τ sig) → Buf (Elt Ideal) ℓ) (c : Dev nD)

/-- The first bias as the kernel sees it: the [128] argument reshaped to [1, 128]. -/
theorem V_bias1 : (V m c main_call0_v0 : S1x128.Idx → EReal) = shapeCast S1x128 (m ((c : Thread nD τ).loc main_arg3)) shapeCasts_S128_S1x128 := by
  show StableHlo.after hostOps0 (fun b => m (c, b)) (Proc.devRef .tc main_call0_v0) = _
  after_results
  rfl

/-- The second bias as the kernel sees it. -/
theorem V_bias2 : (V m c main_call0_v1 : S1x128.Idx → EReal) = shapeCast S1x128 (m ((c : Thread nD τ).loc main_arg5)) shapeCasts_S128_S1x128 := by
  show StableHlo.after hostOps0 (fun b => m (c, b)) (Proc.devRef .tc main_call0_v1) = _
  after_results
  rfl

theorem V_bias1_apply (e : Fin 128) : V m c main_call0_v0 (ix2 (0 : Fin 1) e) = m ((c : Thread nD τ).loc main_arg3) (ix1 e) := by
  rw [V_bias1]
  exact shapeCast_apply _ shapeCasts_S128_S1x128 (ix2 (0 : Fin 1) e) (ix1 e) (by
    rw [Shape.rowMajor_val_one, Shape.rowMajor_val_two]; show e.val = 0 * 128 + e.val; omega)

theorem V_bias2_apply (d : Fin 128) : V m c main_call0_v1 (ix2 (0 : Fin 1) d) = m ((c : Thread nD τ).loc main_arg5) (ix1 d) := by
  rw [V_bias2]
  exact shapeCast_apply _ shapeCasts_S128_S1x128 (ix2 (0 : Fin 1) d) (ix1 d) (by
    rw [Shape.rowMajor_val_one, Shape.rowMajor_val_two]; show d.val = 0 * 128 + d.val; omega)

/-- Over the reals the kernel's result is the reference's. -/
theorem kerR_eq_refR (x : Fin 10000 → Fin 128 → ℝ) (a : Fin 10000 → Fin 10000 → ℝ) (w1 : Fin 128 → Fin 128 → ℝ) (b1 : Fin 128 → ℝ)
    (w2 : Fin 128 → Fin 128 → ℝ) (b2 : Fin 128 → ℝ) (d : Fin 128) :
    kerR x a w1 b1 w2 b2 d = refR x a w1 b1 w2 b2 d := by
  unfold kerR refR rowR cR
  exact Cert.GcnAlgebra.mean_of_layers a (hR x a w1 b1) (fun e => w2 e d) (b2 d) 10000 (by simp) (by norm_num)

/-- THE TWO RESULTS AGREE: the reference's result of the argument arrays is the kernel's output block, reshaped. -/
theorem result_eq [Cert.Pre_finite_inputs.Facts]
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = shapeCast S128 (outVal m c) shapeCasts_S1x128_S128 := by
  obtain ⟨f0, f1, f2, f3, f4, f5⟩ := Cert.Finite.real_of_pre _ _ _ _ _ _ hpre
  choose x0 hx0 using f0
  choose x1 hx1 using f1
  choose x2 hx2 using f2
  choose x3 hx3 using f3
  choose x4 hx4 using f4
  choose x5 hx5 using f5
  funext i
  obtain ⟨d, rfl⟩ : ∃ d : Fin 128, i = ix1 d := ⟨i 0, eq_ix1 i⟩
  have e1 := v13_real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (fun k l => x0 (ix2 k l)) (fun i j => x1 (ix2 i j)) (fun l e => x2 (ix2 l e)) (fun e => x3 (ix1 e)) (fun e d => x4 (ix2 e d)) (fun d => x5 (ix1 d))
    (fun k l => hx0 _) (fun i j => hx1 _) (fun l e => hx2 _) (fun e => hx3 _) (fun e d => hx4 _) (fun d => hx5 _) d
  have e3 := outVal_real m c
    (fun k l => x0 (ix2 k l)) (fun i j => x1 (ix2 i j)) (fun l e => x2 (ix2 l e)) (fun e => x3 (ix1 e)) (fun e d => x4 (ix2 e d)) (fun d => x5 (ix1 d))
    (fun k l => by rw [V_main_arg0]; exact hx0 _) (fun i j => by rw [V_main_arg1]; exact hx1 _) (fun l e => by rw [V_main_arg2]; exact hx2 _)
    (fun e => by rw [V_bias1_apply]; exact hx3 _) (fun e d => by rw [V_main_arg4]; exact hx4 _) (fun d => by rw [V_bias2_apply]; exact hx5 _) d
  have e2 : ((refR (fun k l => x0 (ix2 k l)) (fun i j => x1 (ix2 i j)) (fun l e => x2 (ix2 l e)) (fun e => x3 (ix1 e)) (fun e d => x4 (ix2 e d)) (fun d => x5 (ix1 d)) d : ℝ) : EReal) = ((kerR (fun k l => x0 (ix2 k l)) (fun i j => x1 (ix2 i j)) (fun l e => x2 (ix2 l e)) (fun e => x3 (ix1 e)) (fun e d => x4 (ix2 e d)) (fun d => x5 (ix1 d)) d : ℝ) : EReal) :=
    congrArg _ (kerR_eq_refR (fun k l => x0 (ix2 k l)) (fun i j => x1 (ix2 i j)) (fun l e => x2 (ix2 l e)) (fun e => x3 (ix1 e)) (fun e d => x4 (ix2 e d)) (fun d => x5 (ix1 d)) d).symm
  have e4 := shapeCast_apply (outVal m c) shapeCasts_S1x128_S128 (ix1 d) (ix2 (0 : Fin 1) d) (by
    rw [Shape.rowMajor_val_one, Shape.rowMajor_val_two]; show 0 * 128 + d.val = d.val; omega)
  exact e1.trans (e2.trans (e3.symm.trans e4.symm))

end Cert.Bridge

end
-- ==== Proof.lean ====
/-
  A two-layer graph convolution on a dense adjacency followed by the mean over the nodes,
      out = mean_i ( adj · (relu(adj · (x·W1) + b1) · W2) + b2 ),
  computed by a kernel that streams the adjacency once, 400 rows per grid point: it keeps x·W1, the rectified first
  layer and the running column sums of the adjacency in scratch, and at the last point contracts the column sums
  against the first layer, multiplies by W2, scales by the named reciprocal 1/10000 and adds b2 — against the plain
  reference, which applies the adjacency twice and then averages.

  The three frames. The kernel's and the idealized kernel's run is the pipeline's launch over a body proved by cases
  on the grid point (first / middle / last), under an invariant that names what the three scratch buffers hold after
  each point (modules KernelBody and IdealBody, the same proof at the two instances). The reference's frame is its
  run with the result dropped.

  The idealization's one ledger entry: the literal 9.99999974e-5 is named 1/10000 at the ideal instance.

  The equivalence. With finite inputs every entry is a real number and both programs compute real numbers by finite
  sums; summing the second layer over the rows first replaces the adjacency by its column sums, which is exactly what
  the kernel contracts (modules KernelValue, RefValue, Algebra, Bridge).
-/
import proofs.«165508_g90297392431549_cont_sun_m_1291_8_alg».proof.Defs
import proofs.«165508_g90297392431549_cont_sun_m_1291_8_alg».proof.Proof.Gen.Kernel
import proofs.«165508_g90297392431549_cont_sun_m_1291_8_alg».proof.Proof.Gen.KernelIdeal
import proofs.«165508_g90297392431549_cont_sun_m_1291_8_alg».proof.Proof.Gen.ReferenceIdeal
import proofs.«165508_g90297392431549_cont_sun_m_1291_8_alg».proof.Proof.Gen.Pre_finite_inputs
import proofs.«165508_g90297392431549_cont_sun_m_1291_8_alg».proof.Proof.Gen.ReferenceIdeal.Run
import proofs.«165508_g90297392431549_cont_sun_m_1291_8_alg».proof.Proof.Gen.ReferenceIdeal.Read
import proofs.«165508_g90297392431549_cont_sun_m_1291_8_alg».proof.Proof.KernelBody
import proofs.«165508_g90297392431549_cont_sun_m_1291_8_alg».proof.Proof.IdealBlocks
import proofs.«165508_g90297392431549_cont_sun_m_1291_8_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the name "inv_10000" the value 1/10000. -/
theorem preserves : Cert.preserves_Kernel_KernelIdeal :=
  IdealRules.named_const.statement Cert.KernelIdeal.κ "inv_10000" .f32 0x38D1B717#32 ((1 / 10000 : ℝ) : EReal) rfl

/-- At the ideal instance the kernel's result array ends at its output block reshaped and the reference's at its
    composed term of arguments that agree; under the precondition these are one function of the arguments. -/
theorem algebraic : Cert.algebraic_KernelIdeal_ReferenceIdeal := by
  intro m ρ m' ρ' hpre hagree
  refine ⟨_, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2.1, (hagree c).2.2.2.2.2]
  exact Cert.Bridge.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
